-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000x1 : S_.BroadcastsInDim S1000000x1 (![] : Fin 0 → Fin S1000000x1.rank)
  reducesTo_S1000000x1_S_d0_1 : S1000000x1.ReducesTo [0, 1] S_

variable [Facts]

def fn_part2 {F : FTy → Type} [FloatOps F] (main_arg7 : FVec F S1000000x1 .f32) (main_v33 : IVec S_ 1) : IVec S_ 1 :=
  let main_v34 : FVec F S1000000x1 .f32 := Host.absf main_arg7
  let main_cst_12 : FVec F S_ .f32 := constant S_ .f32 0x7F800000#32
  let main_v35 : FVec F S1000000x1 .f32 := broadcastInDim S1000000x1 ![] bcast_S_S1000000x1 main_cst_12
  let main_v36 : IVec S1000000x1 1 := cmpf .olt main_v34 main_v35
  let main_c_13 : IVec S_ 1 := constantI S_ 1 1#1
  let main_v37 : IVec S_ 1 := (fun x v => Host.reduce IntOp.andi x v reducesTo_S1000000x1_S_d0_1 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S1000000x1 .f32) (main_arg7 : FVec F S1000000x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1000000x1 .f32 := Host.absf main_arg6
  let main_cst_10 : FVec F S_ .f32 := constant S_ .f32 0x7F800000#32
  let main_v30 : FVec F S1000000x1 .f32 := broadcastInDim S1000000x1 ![] bcast_S_S1000000x1 main_cst_10
  let main_v31 : IVec S1000000x1 1 := cmpf .olt main_v29 main_v30
  let main_c_11 : IVec S_ 1 := constantI S_ 1 1#1
  let main_v32 : IVec S_ 1 := (fun x v => Host.reduce IntOp.andi x v reducesTo_S1000000x1_S_d0_1 h_S_) main_v31 main_c_11
  let main_v33 : IVec S_ 1 := andi main_v28 main_v32
  fn_part2 (F := F) main_arg7 main_v33

def fn {F : FTy → Type} [FloatOps F] (main_arg0 : FVec F S150000x64 .f32) (main_arg1 : FVec F S150000x64 .f32) (main_arg2 : FVec F S64x64 .f32) (main_arg3 : FVec F S64 .f32) (main_arg4 : FVec F S64x64 .f32) (main_arg5 : FVec F S64 .f32) (main_arg6 : FVec F S1000000x1 .f32) (main_arg7 : FVec F S1000000x1 .f32) (main_arg8 : IVec S1000000 32) (main_arg9 : IVec S1000000 32) (main_arg10 : IVec S1000000 32) (main_arg11 : IVec S1000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S150000x64 : Shape := ⟨2, ![150000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S6000x64 : Shape := ⟨2, ![6000, 64]⟩
abbrev S1x64 : Shape := ⟨2, ![1, 64]⟩
abbrev S_ : Shape := ⟨0, ![]⟩
abbrev S1000000x64 : Shape := ⟨2, ![1000000, 64]⟩
abbrev S4000x64 : Shape := ⟨2, ![4000, 64]⟩
abbrev S4000x1 : Shape := ⟨2, ![4000, 1]⟩
abbrev S6000 : Shape := ⟨1, ![6000]⟩
abbrev S6000x1 : Shape := ⟨2, ![6000, 1]⟩
abbrev S1x150000x64 : Shape := ⟨3, ![1, 150000, 64]⟩
abbrev S2x150000x64 : Shape := ⟨3, ![2, 150000, 64]⟩

abbrev nBuf : Space → Nat
  | .hbm => 85
  | .vmem => 44
  | .smem => 0
  | _ => 0

abbrev bufTy : (tb : Table) → Fin (tcTables nBuf tb) → BufTy
  | .hbm, ⟨0, _⟩ => ⟨S150000x64, .f32⟩
  | .hbm, ⟨1, _⟩ => ⟨S150000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1000000x1, .f32⟩
  | .hbm, ⟨7, _⟩ => ⟨S1000000x1, .f32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S150000x64, .f32⟩
  | .hbm, ⟨13, _⟩ => ⟨S150000x64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S150000x64, .f32⟩
  | .hbm, ⟨72, _⟩ => ⟨S1000000x1, .i32⟩
  | .hbm, ⟨73, _⟩ => ⟨S150000x64, .f32⟩
  | .hbm, ⟨74, _⟩ => ⟨S150000x64, .f32⟩
  | .hbm, ⟨75, _⟩ => ⟨S_, .f32⟩
  | .hbm, ⟨76, _⟩ => ⟨S150000x64, .f32⟩
  | .hbm, ⟨77, _⟩ => ⟨S1000000x1, .i32⟩
  | .hbm, ⟨78, _⟩ => ⟨S150000x64, .f32⟩
  | .hbm, ⟨79, _⟩ => ⟨S150000x64, .f32⟩
  | .hbm, ⟨80, _⟩ => ⟨S150000x64, .f32⟩
  | .hbm, ⟨81, _⟩ => ⟨S150000x64, .f32⟩
  | .hbm, ⟨82, _⟩ => ⟨S1x150000x64, .f32⟩
  | .hbm, ⟨83, _⟩ => ⟨S1x150000x64, .f32⟩
  | .hbm, ⟨84, _⟩ => ⟨S2x150000x64, .f32⟩
  | .local _ .vmem, ⟨0, _⟩ => ⟨S6000x64, .f32⟩
  | .local _ .vmem, ⟨1, _⟩ => ⟨S6000x64, .f32⟩
  | .local _ .vmem, ⟨2, _⟩ => ⟨S64x64, .f32⟩
  | .local _ .vmem, ⟨3, _⟩ => ⟨S64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S64x64, .f32⟩
  | .local _ .vmem, ⟨9, _⟩ => ⟨S64, .f32⟩
  | .local _ .vmem, ⟨10, _⟩ => ⟨S6000x64, .f32⟩
  | .local _ .vmem, ⟨11, _⟩ => ⟨S6000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S64x64, .f32⟩
  | .local _ .vmem, ⟨21, _⟩ => ⟨S64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x1, .f32⟩
  | .local _ .vmem, ⟨31, _⟩ => ⟨S4000x1, .f32⟩
  | .local _ .vmem, ⟨32, _⟩ => ⟨S64x64, .f32⟩
  | .local _ .vmem, ⟨33, _⟩ => ⟨S64, .f32⟩
  | .local _ .vmem, ⟨34, _⟩ => ⟨S4000x64, .f32⟩
  | .local _ .vmem, ⟨35, _⟩ => ⟨S4000x64, .f32⟩
  | .local _ .vmem, ⟨36, _⟩ => ⟨S6000x64, .f32⟩
  | .local _ .vmem, ⟨37, _⟩ => ⟨S6000x64, .f32⟩
  | .local _ .vmem, ⟨38, _⟩ => ⟨S6000x64, .f32⟩
  | .local _ .vmem, ⟨39, _⟩ => ⟨S6000x64, .f32⟩
  | .local _ .vmem, ⟨40, _⟩ => ⟨S6000x64, .f32⟩
  | .local _ .vmem, ⟨41, _⟩ => ⟨S6000x64, .f32⟩
  | .local _ .vmem, ⟨42, _⟩ => ⟨S6000x64, .f32⟩
  | .local _ .vmem, ⟨43, _⟩ => ⟨S6000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc5_sem0_0 : DmaSem sig := 40
abbrev cc5_sem0_1 : DmaSem sig := 41
abbrev cc5_sem1_0 : DmaSem sig := 42
abbrev cc5_sem1_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  inb_S6000x64_S6000x64_0_0 : ∀ a, (![0, 0] : Fin 2 → Nat) a + S6000x64.size a ≤ S6000x64.size a
  h_S6000x64 : 0 < S6000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S6000x64 : S1x64.Broadcasts S6000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  broadcasts_S1x64_S4000x64 : S1x64.Broadcasts S4000x64
  broadcasts_S4000x1_S4000x64 : S4000x1.Broadcasts S4000x64
  bcast_S_S150000x64 : S_.BroadcastsInDim S150000x64 (![] : Fin 0 → Fin S150000x64.rank)
  shapeCasts_S6000x64_S6000x64 : S6000x64.ShapeCasts S6000x64
  reduces_S6000x64_S6000 : S6000x64.Reduces [1] S6000
  shapeCasts_S6000_S6000x1 : S6000.ShapeCasts S6000x1
  broadcasts_S6000x1_S6000x64 : S6000x1.Broadcasts S6000x64
  bcast_S150000x64_S1x150000x64_1_2 : S150000x64.BroadcastsInDim S1x150000x64 (![1, 2] : Fin 2 → Fin S1x150000x64.rank)
  concatenates_S1x150000x64_S1x150000x64_S2x150000x64_d0 : Shape.Concatenates [S1x150000x64, S1x150000x64] S2x150000x64 0
  dot_S6000x64_S64x64_S6000x64_1_0_0_1_n_n_wf : DotDims.WF S6000x64 S64x64 S6000x64 [1] [0] [0] [1] [] []
  gather_S150000x64_S1000000x1_S1000000x64_1_0_n_n_0_1_164_wf : GatherDims.WF S150000x64 S1000000x1 S1000000x64 [1] [0] [] [0] [] 1 ![1, 64]
  dot_S4000x64_S64x64_S4000x64_1_0_0_1_n_n_wf : DotDims.WF S4000x64 S64x64 S4000x64 [1] [0] [0] [1] [] []
  scatter_S150000x64_S1000000x1_S1000000x64_1_0_0_1_wf : ScatterDims.WF S150000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S150000x64.size a
  hwx0_3 : ∀ i : grid0.Coords, EltTy.bits .f32 = 32 ∨ (Rect.block (s := S150000x64) S6000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x64.size a ≤ S150000x64.size a
  hwx1_3 : ∀ i : grid1.Coords, EltTy.bits .f32 = 32 ∨ (Rect.block (s := S150000x64) S6000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1000000x64.size a
  hwx2_0 : ∀ i : grid2.Coords, EltTy.bits .f32 = 32 ∨ (Rect.block (s := S1000000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S1000000x64.size a
  hwx2_1 : ∀ i : grid2.Coords, EltTy.bits .f32 = 32 ∨ (Rect.block (s := S1000000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S1000000x64.size a
  hwx2_2 : ∀ i : grid2.Coords, EltTy.bits .f32 = 32 ∨ (Rect.block (s := S1000000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S1000000x1.size a
  hwx2_3 : ∀ i : grid2.Coords, EltTy.bits .f32 = 32 ∨ (Rect.block (s := S1000000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S1000000x64.size a
  hwx2_6 : ∀ i : grid2.Coords, EltTy.bits .f32 = 32 ∨ (Rect.block (s := S1000000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1000000x64.size a
  hwx3_0 : ∀ i : grid3.Coords, EltTy.bits .f32 = 32 ∨ (Rect.block (s := S1000000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S1000000x64.size a
  hwx3_1 : ∀ i : grid3.Coords, EltTy.bits .f32 = 32 ∨ (Rect.block (s := S1000000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S1000000x64.size a
  hwx3_2 : ∀ i : grid3.Coords, EltTy.bits .f32 = 32 ∨ (Rect.block (s := S1000000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S1000000x1.size a
  hwx3_3 : ∀ i : grid3.Coords, EltTy.bits .f32 = 32 ∨ (Rect.block (s := S1000000x1) S4000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S1000000x64.size a
  hwx3_6 : ∀ i : grid3.Coords, EltTy.bits .f32 = 32 ∨ (Rect.block (s := S1000000x64) S4000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S150000x64.size a
  hwx4_0 : ∀ i : grid4.Coords, EltTy.bits .f32 = 32 ∨ (Rect.block (s := S150000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x64.size a ≤ S150000x64.size a
  hwx4_1 : ∀ i : grid4.Coords, EltTy.bits .f32 = 32 ∨ (Rect.block (s := S150000x64) S6000x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S150000x64.size a
  hwx5_0 : ∀ i : grid5.Coords, EltTy.bits .f32 = 32 ∨ (Rect.block (s := S150000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S150000x64.size a
  hwx5_1 : ∀ i : grid5.Coords, EltTy.bits .f32 = 32 ∨ (Rect.block (s := S150000x64) S6000x64.size (cc5_transform_1 i) (hinb5_1 i)).WholeWords (EltTy.packing .f32)

variable [Facts₀]

def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S6000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S6000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v29) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg4) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg5) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v53) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S6000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v49) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S6000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S150000x64 : Shape := ⟨2, ![150000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S1x64 : Shape := ⟨2, ![1, 64]⟩
abbrev S_ : Shape := ⟨0, ![]⟩
abbrev S1000000x64 : Shape := ⟨2, ![1000000, 64]⟩
abbrev S150000 : Shape := ⟨1, ![150000]⟩
abbrev S150000x1 : Shape := ⟨2, ![150000, 1]⟩
abbrev S1x150000x64 : Shape := ⟨3, ![1, 150000, 64]⟩
abbrev S2x150000x64 : Shape := ⟨3, ![2, 150000, 64]⟩

abbrev nBuf : Space → Nat
  | .hbm => 141
  | .vmem => 0
  | .smem => 0
  | _ => 0

abbrev hbmTy0_0 (i : Nat) : BufTy := match i % 128 with
  | 0 => ⟨S150000x64, .f32⟩
  | 1 => ⟨S150000x64, .f32⟩
  | 2 => ⟨S64x64, .f32⟩
  | 3 => ⟨S64, .f32⟩
  | 4 => ⟨S64x64, .f32⟩
  | 5 => ⟨S64, .f32⟩
  | 6 => ⟨S1000000x1, .f32⟩
  | 7 => ⟨S1000000x1, .f32⟩
  | 8 => ⟨S1000000, .i32⟩
  | 9 => ⟨S1000000, .i32⟩
  | 10 => ⟨S1000000, .i32⟩
  | 11 => ⟨S1000000, .i32⟩
  | 12 => ⟨S64x64, .f32⟩
  | 13 => ⟨S150000x64, .f32⟩
  | 14 => ⟨S1x64, .f32⟩
  | 15 => ⟨S150000x64, .f32⟩
  | 16 => ⟨S150000x64, .f32⟩
  | 17 => ⟨S64x64, .f32⟩
  | 18 => ⟨S150000x64, .f32⟩
  | 19 => ⟨S1x64, .f32⟩
  | 20 => ⟨S150000x64, .f32⟩
  | 21 => ⟨S150000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S1000000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S64x64, .f32⟩
  | 51 => ⟨S1000000x64, .f32⟩
  | 52 => ⟨S1000000x64, .f32⟩
  | 53 => ⟨S1x64, .f32⟩
  | 54 => ⟨S1000000x64, .f32⟩
  | 55 => ⟨S1000000x64, .f32⟩
  | 56 => ⟨S1000000x64, .f32⟩
  | 57 => ⟨S1000000x64, .f32⟩
  | 58 => ⟨S_, .f32⟩
  | 59 => ⟨S150000x64, .f32⟩
  | 60 => ⟨S1000000x1, .i32⟩
  | 61 => ⟨S150000x64, .f32⟩
  | 62 => ⟨S150000x64, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x64, .f32⟩
  | 81 => ⟨S1000000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S64x64, .f32⟩
  | 92 => ⟨S1000000x64, .f32⟩
  | 93 => ⟨S1000000x64, .f32⟩
  | 94 => ⟨S1x64, .f32⟩
  | 95 => ⟨S1000000x64, .f32⟩
  | 96 => ⟨S1000000x64, .f32⟩
  | 97 => ⟨S1000000x64, .f32⟩
  | 98 => ⟨S1000000x64, .f32⟩
  | 99 => ⟨S_, .f32⟩
  | 100 => ⟨S150000x64, .f32⟩
  | 101 => ⟨S1000000x1, .i32⟩
  | 102 => ⟨S150000x64, .f32⟩
  | 103 => ⟨S150000x64, .f32⟩
  | 104 => ⟨S_, .f32⟩
  | 105 => ⟨S150000x64, .f32⟩
  | 106 => ⟨S150000x64, .i1⟩
  | 107 => ⟨S_, .f32⟩
  | 108 => ⟨S150000x64, .f32⟩
  | 109 => ⟨S150000x64, .f32⟩
  | 110 => ⟨S150000x64, .f32⟩
  | 111 => ⟨S150000x64, .f32⟩
  | 112 => ⟨S_, .f32⟩
  | 113 => ⟨S150000, .f32⟩
  | 114 => ⟨S150000x1, .f32⟩
  | 115 => ⟨S150000x1, .f32⟩
  | 116 => ⟨S_, .f32⟩
  | 117 => ⟨S150000x1, .f32⟩
  | 118 => ⟨S150000x1, .f32⟩
  | 119 => ⟨S150000x64, .f32⟩
  | 120 => ⟨S150000x64, .f32⟩
  | 121 => ⟨S_, .f32⟩
  | 122 => ⟨S150000x64, .f32⟩
  | 123 => ⟨S150000x64, .i1⟩
  | 124 => ⟨S_, .f32⟩
  | 125 => ⟨S150000x64, .f32⟩
  | 126 => ⟨S150000x64, .f32⟩
  | 127 => ⟨S150000x64, .f32⟩
  | _ => ⟨S150000x64, .f32⟩

abbrev hbmTy0_1 (i : Nat) : BufTy := match i % 128 with
  | 0 => ⟨S150000x64, .f32⟩
  | 1 => ⟨S_, .f32⟩
  | 2 => ⟨S150000, .f32⟩
  | 3 => ⟨S150000x1, .f32⟩
  | 4 => ⟨S150000x1, .f32⟩
  | 5 => ⟨S_, .f32⟩
  | 6 => ⟨S150000x1, .f32⟩
  | 7 => ⟨S150000x1, .f32⟩
  | 8 => ⟨S150000x64, .f32⟩
  | 9 => ⟨S150000x64, .f32⟩
  | 10 => ⟨S1x150000x64, .f32⟩
  | 11 => ⟨S1x150000x64, .f32⟩
  | 12 => ⟨S2x150000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call1_v0 : Ref sig .tc := ⟨.hbm, 111, rfl⟩
abbrev main_call1_cst : Ref sig .tc := ⟨.hbm, 112, rfl⟩
abbrev main_call1_v1 : Ref sig .tc := ⟨.hbm, 113, rfl⟩
abbrev main_call1_v2 : Ref sig .tc := ⟨.hbm, 114, rfl⟩
abbrev main_v83 : Ref sig .tc := ⟨.hbm, 115, rfl⟩
abbrev main_cst_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call3_v0 : Ref sig .tc := ⟨.hbm, 128, rfl⟩
abbrev main_call3_cst : Ref sig .tc := ⟨.hbm, 129, rfl⟩
abbrev main_call3_v1 : Ref sig .tc := ⟨.hbm, 130, rfl⟩
abbrev main_call3_v2 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S150000x64_S1x150000x64_1_2 : S150000x64.BroadcastsInDim S1x150000x64 (![1, 2] : Fin 2 → Fin S1x150000x64.rank)
  concatenates_S1x150000x64_S1x150000x64_S2x150000x64_d0 : Shape.Concatenates [S1x150000x64, S1x150000x64] S2x150000x64 0
  dot_S150000x64_S64x64_S150000x64_1_0_0_1_n_n_wf : DotDims.WF S150000x64 S64x64 S150000x64 [1] [0] [0] [1] [] []
  gather_S150000x64_S1000000x1_S1000000x64_1_0_n_n_0_1_164_wf : GatherDims.WF S150000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S150000x64_S1000000x1_S1000000x64_1_0_0_1_wf : ScatterDims.WF S150000x64 S1000000x1 S1000000x64 [1] [0] [0] 1

variable [Facts₀]

def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

class Facts : Prop extends Facts₀ where

variable [Facts]
-- ==== Proof.KRun.lean ====
/-
  The idealized kernel's whole run with its result named.

  The program is six kernel launches among three stretches of host operations.  Its generated frame follows the
  TensorCore's buffer contents from boundary to boundary (`Gen.W0` … `Gen.W9`: a host stretch applies its operations,
  a launch replaces its output array by what the pipeline's write-backs leave) and ends by reading the argument
  arrays out of the last contents `Gen.W9`.  Here the same run is read once more, keeping also the result buffer: every
  weakly fair execution ends with the result array at `Gen.W9`'s contents of it and the arguments as launched.
-/
import proofs.«133899_j52561809769216_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's program terminates, nothing faulting, with the result
    array at the last boundary's contents and the twelve argument arrays as launched. -/
theorem run : θ_run defs (onTc (τ := τ) (main (F := F))) ⟨m, fun _ => 0, ρ⟩ (fun r => ∀ c : Dev nD,
      r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Whole

end
-- ==== Proof.Spec.lean ====
/-
  The common value of the two programs, as one function of the twelve argument arrays.

  Both programs compute, for users u and items i (150000 rows of 64 features each) and two lists of a million
  edges (user→item: sources ui_src, targets ui_dst, weights norm_ui; item→user: iu_src, iu_dst, norm_iu):

    lin x      = x · W1ᵀ + b1                                         (per node, a row of 64)
    msg e      = norm[e] · (lin(src)[e] + (feat(src)[e] ⊙ feat(dst)[e]) · W2ᵀ + b2)      (per edge)
    h          = lin x + Σ_{e : dst(e) = row} msg e                                   (scatter-add of the messages)
    finish h   = l / max(‖l‖₂, 1e-12),   l = h where h > 0, else 0.2 · h          (row by row)

  and return the pair (finish h_user, finish h_item) stacked on a new leading axis.  A row lookup x[idx] is the
  host's gather after its index normalisation (a negative index has 150000 added), the sum over edges is the host's
  scatter-add into zeros: both programs use these same host operations, so they stay opaque here.
  The functions are spelt with the reference program's shapes and dimension records, operation by operation in the
  order the reference applies them, so that the reference's composed result term is this term by unfolding.
-/
import proofs.«133899_j52561809769216_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- The dense layer of every node: row p of `x · Wᵀ + b`, that is Σ_k x[p,k] · W[q,k] + b[q]. -/
def lin (x : (⟨S150000x64, .f32⟩ : BufTy).Contents (Elt F)) (W : (⟨S64x64, .f32⟩ : BufTy).Contents (Elt F))
    (b : (⟨S64, .f32⟩ : BufTy).Contents (Elt F)) : (⟨S150000x64, .f32⟩ : BufTy).Contents (Elt F) :=
  addf (Host.dotGeneral dot_S150000x64_S64x64_S150000x64_1_0_0_1_n_n none x (transpose S64x64 [1, 0] W transposes_S64x64_S64x64_1_0))
    (broadcastInDim S150000x64 ![0, 1] bcast_S1x64_S150000x64_0_1 (broadcastInDim S1x64 ![1] bcast_S64_S1x64_1 b))

/-- An edge list's node indices as the gather takes them: a negative index has 150000 added (jnp's wrap-around),
    and the list becomes a column. -/
def rowIdx (i : (⟨S1000000, .i32⟩ : BufTy).Contents (Elt F)) : (⟨S1000000x1, .i32⟩ : BufTy).Contents (Elt F) :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 150000#32))) i)

/-- Row lookup: edge e's row of a node array. -/
def rows (x : (⟨S150000x64, .f32⟩ : BufTy).Contents (Elt F)) (i : (⟨S1000000, .i32⟩ : BufTy).Contents (Elt F)) :
    (⟨S1000000x64, .f32⟩ : BufTy).Contents (Elt F) :=
  Host.gather gather_S150000x64_S1000000x1_S1000000x64_1_0_n_n_0_1_164 x (rowIdx i)

/-- The message of every edge: `norm · (g + (u ⊙ v) · Wᵀ + b)`. -/
def msg (u v g : (⟨S1000000x64, .f32⟩ : BufTy).Contents (Elt F)) (n : (⟨S1000000x1, .f32⟩ : BufTy).Contents (Elt F))
    (W : (⟨S64x64, .f32⟩ : BufTy).Contents (Elt F)) (b : (⟨S64, .f32⟩ : BufTy).Contents (Elt F)) :
    (⟨S1000000x64, .f32⟩ : BufTy).Contents (Elt F) :=
  mulf (broadcastInDim S1000000x64 ![0, 1] bcast_S1000000x1_S1000000x64_0_1 n)
    (addf (addf g (Host.dotGeneral dot_S1000000x64_S64x64_S1000000x64_1_0_0_1_n_n none (mulf u v) (transpose S64x64 [1, 0] W transposes_S64x64_S64x64_1_0)))
      (broadcastInDim S1000000x64 ![0, 1] bcast_S1x64_S1000000x64_0_1 (broadcastInDim S1x64 ![1] bcast_S64_S1x64_1 b)))

/-- The messages summed into their target rows, on top of the targets' own dense layer. -/
def agg (own : (⟨S150000x64, .f32⟩ : BufTy).Contents (Elt F)) (dst : (⟨S1000000, .i32⟩ : BufTy).Contents (Elt F))
    (ms : (⟨S1000000x64, .f32⟩ : BufTy).Contents (Elt F)) : (⟨S150000x64, .f32⟩ : BufTy).Contents (Elt F) :=
  addf own (Host.scatterAdd scatter_S150000x64_S1000000x1_S1000000x64_1_0_0_1
    (broadcastInDim S150000x64 ![] bcast_S_S150000x64 (constant S_ .f32 0x00000000#32))
    (broadcastInDim S1000000x1 ![0] bcast_S1000000_S1000000x1_0 dst) ms)

/-- The leaky rectifier: h where h > 0, else 0.2 · h. -/
def leaky (h : (⟨S150000x64, .f32⟩ : BufTy).Contents (Elt F)) : (⟨S150000x64, .f32⟩ : BufTy).Contents (Elt F) :=
  select (cmpf .ogt h (broadcastInDim S150000x64 ![] bcast_S_S150000x64 (constant S_ .f32 0x00000000#32))) h
    (mulf (broadcastInDim S150000x64 ![] bcast_S_S150000x64 (constant S_ .f32 0x3E4CCCCD#32)) h)

/-- Each row of the rectified array divided by its Euclidean norm, the norm clamped below at 1e-12. -/
def finish (h : (⟨S150000x64, .f32⟩ : BufTy).Contents (Elt F)) : (⟨S150000x64, .f32⟩ : BufTy).Contents (Elt F) :=
  Host.divf (leaky h) (broadcastInDim S150000x64 ![0, 1] bcast_S150000x1_S150000x64_0_1
    (maximumf (Host.sqrt (broadcastInDim S150000x1 ![0] bcast_S150000_S150000x1_0
        (Host.reduceAdd (mulf (leaky h) (leaky h)) (constant S_ .f32 0x00000000#32) reducesTo_S150000x64_S150000_d1 h_S_)))
      (broadcastInDim S150000x1 ![] bcast_S_S150000x1 (constant S_ .f32 0x2B8CBCCC#32))))

/-- One direction of the layer: the nodes `tgt` receive from the nodes `src` along the edges (s, d, norm). -/
def side (tgt src : (⟨S150000x64, .f32⟩ : BufTy).Contents (Elt F)) (W1 : (⟨S64x64, .f32⟩ : BufTy).Contents (Elt F))
    (b1 : (⟨S64, .f32⟩ : BufTy).Contents (Elt F)) (W2 : (⟨S64x64, .f32⟩ : BufTy).Contents (Elt F)) (b2 : (⟨S64, .f32⟩ : BufTy).Contents (Elt F))
    (n : (⟨S1000000x1, .f32⟩ : BufTy).Contents (Elt F)) (s d : (⟨S1000000, .i32⟩ : BufTy).Contents (Elt F)) :
    (⟨S150000x64, .f32⟩ : BufTy).Contents (Elt F) :=
  finish (agg (lin tgt W1 b1) d (msg (rows src s) (rows tgt d) (rows (lin src W1 b1) s) n W2 b2))

/-- Two node arrays stacked on a new leading axis of extent two. -/
def stack (x y : (⟨S150000x64, .f32⟩ : BufTy).Contents (Elt F)) : (⟨S2x150000x64, .f32⟩ : BufTy).Contents (Elt F) :=
  concatenate S2x150000x64 0
    [⟨S1x150000x64, (broadcastInDim S1x150000x64 ![1, 2] bcast_S150000x64_S1x150000x64_1_2 x)⟩,
     ⟨S1x150000x64, (broadcastInDim S1x150000x64 ![1, 2] bcast_S150000x64_S1x150000x64_1_2 y)⟩]
    concatenates_S1x150000x64_S1x150000x64_S2x150000x64_d0

/-- The whole result: the users' side (fed by the item→user edges) stacked over the items' side (fed by the
    user→item edges). -/
def result (fu fi : (⟨S150000x64, .f32⟩ : BufTy).Contents (Elt F)) (W1 : (⟨S64x64, .f32⟩ : BufTy).Contents (Elt F))
    (b1 : (⟨S64, .f32⟩ : BufTy).Contents (Elt F)) (W2 : (⟨S64x64, .f32⟩ : BufTy).Contents (Elt F)) (b2 : (⟨S64, .f32⟩ : BufTy).Contents (Elt F))
    (nui niu : (⟨S1000000x1, .f32⟩ : BufTy).Contents (Elt F)) (uis uid ius iud : (⟨S1000000, .i32⟩ : BufTy).Contents (Elt F)) :
    (⟨S2x150000x64, .f32⟩ : BufTy).Contents (Elt F) :=
  stack (side fu fi W1 b1 W2 b2 niu ius iud) (side fi fu W1 b1 W2 b2 nui uis uid)

end Cert.Spec

end
-- ==== Proof.KChain.lean ====
/-
  The buffer contents between the six launches: what each boundary keeps and what each host stretch computes.

  The idealized kernel's program is: two dense-layer launches (users, items); a stretch of host operations that looks
  up, for every edge, the rows of its two end nodes in the feature arrays and in the dense layers (six row lookups);
  two message launches (user→item edges, item→user edges); a stretch that sums the messages into their target rows
  on top of the targets' dense layer (two scatter-adds); two finishing launches; and the stacking of the two results.
  A launch rewrites its one output array and nothing else; a host operation writes its one result buffer.  Here each
  host stretch is read as the functions of Spec.lean applied to the previous boundary's contents, and each launch as
  keeping every buffer but its output.
-/
import proofs.«133899_j52561809769216_1_alg».proof.Proof.Gen.KernelIdeal.Frame
import proofs.«133899_j52561809769216_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## A launch keeps every buffer but its output -/

/-- Launch 0 writes its output array main_v0 only: every other buffer leaves the launch as it entered (an input
    window's array is read, never written back; a buffer outside the launch's windows is untouched). -/
theorem keep0 (b : Ref sig .tc) (hb : b ≠ main_v0) : W1 m ρ c (Proc.devRef .tc b) = W0 m ρ c (Proc.devRef .tc b) := by
  by_cases h : ∃ w, Pipeline.arrRef spec0 w = b
  · obtain ⟨w, rfl⟩ := h
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact (W1_arr m ρ c 2).trans (((dat0 (V0 m ρ) c).arrAt_in 2 rfl _).trans (A_eq0 (V0 m ρ) c 2))
    | ⟨3, _⟩ => exact absurd rfl hb
  · exact W1_of_ne m ρ c b fun w e => h ⟨w, e⟩

/-- Launch 1 writes its output array main_v1 only: every other buffer leaves the launch as it entered (an input
    window's array is read, never written back; a buffer outside the launch's windows is untouched). -/
theorem keep1 (b : Ref sig .tc) (hb : b ≠ main_v1) : W2 m ρ c (Proc.devRef .tc b) = W1 m ρ c (Proc.devRef .tc b) := by
  by_cases h : ∃ w, Pipeline.arrRef spec1 w = b
  · obtain ⟨w, rfl⟩ := h
    match w with
    | ⟨0, _⟩ => exact (W2_arr m ρ c 0).trans (((dat1 (V1 m ρ) c).arrAt_in 0 rfl _).trans (A_eq1 (V1 m ρ) c 0))
    | ⟨1, _⟩ => exact (W2_arr m ρ c 1).trans (((dat1 (V1 m ρ) c).arrAt_in 1 rfl _).trans (A_eq1 (V1 m ρ) c 1))
    | ⟨2, _⟩ => exact (W2_arr m ρ c 2).trans (((dat1 (V1 m ρ) c).arrAt_in 2 rfl _).trans (A_eq1 (V1 m ρ) c 2))
    | ⟨3, _⟩ => exact absurd rfl hb
  · exact W2_of_ne m ρ c b fun w e => h ⟨w, e⟩

/-- Launch 2 writes its output array main_v44 only: every other buffer leaves the launch as it entered (an input
    window's array is read, never written back; a buffer outside the launch's windows is untouched). -/
theorem keep2 (b : Ref sig .tc) (hb : b ≠ main_v44) : W4 m ρ c (Proc.devRef .tc b) = W3 m ρ c (Proc.devRef .tc b) := by
  by_cases h : ∃ w, Pipeline.arrRef spec2 w = b
  · obtain ⟨w, rfl⟩ := h
    match w with
    | ⟨0, _⟩ => exact (W4_arr m ρ c 0).trans (((dat2 (V3 m ρ) c).arrAt_in 0 rfl _).trans (A_eq2 (V3 m ρ) c 0))
    | ⟨1, _⟩ => exact (W4_arr m ρ c 1).trans (((dat2 (V3 m ρ) c).arrAt_in 1 rfl _).trans (A_eq2 (V3 m ρ) c 1))
    | ⟨2, _⟩ => exact (W4_arr m ρ c 2).trans (((dat2 (V3 m ρ) c).arrAt_in 2 rfl _).trans (A_eq2 (V3 m ρ) c 2))
    | ⟨3, _⟩ => exact (W4_arr m ρ c 3).trans (((dat2 (V3 m ρ) c).arrAt_in 3 rfl _).trans (A_eq2 (V3 m ρ) c 3))
    | ⟨4, _⟩ => exact (W4_arr m ρ c 4).trans (((dat2 (V3 m ρ) c).arrAt_in 4 rfl _).trans (A_eq2 (V3 m ρ) c 4))
    | ⟨5, _⟩ => exact (W4_arr m ρ c 5).trans (((dat2 (V3 m ρ) c).arrAt_in 5 rfl _).trans (A_eq2 (V3 m ρ) c 5))
    | ⟨6, _⟩ => exact absurd rfl hb
  · exact W4_of_ne m ρ c b fun w e => h ⟨w, e⟩

/-- Launch 3 writes its output array main_v45 only: every other buffer leaves the launch as it entered (an input
    window's array is read, never written back; a buffer outside the launch's windows is untouched). -/
theorem keep3 (b : Ref sig .tc) (hb : b ≠ main_v45) : W5 m ρ c (Proc.devRef .tc b) = W4 m ρ c (Proc.devRef .tc b) := by
  by_cases h : ∃ w, Pipeline.arrRef spec3 w = b
  · obtain ⟨w, rfl⟩ := h
    match w with
    | ⟨0, _⟩ => exact (W5_arr m ρ c 0).trans (((dat3 (V4 m ρ) c).arrAt_in 0 rfl _).trans (A_eq3 (V4 m ρ) c 0))
    | ⟨1, _⟩ => exact (W5_arr m ρ c 1).trans (((dat3 (V4 m ρ) c).arrAt_in 1 rfl _).trans (A_eq3 (V4 m ρ) c 1))
    | ⟨2, _⟩ => exact (W5_arr m ρ c 2).trans (((dat3 (V4 m ρ) c).arrAt_in 2 rfl _).trans (A_eq3 (V4 m ρ) c 2))
    | ⟨3, _⟩ => exact (W5_arr m ρ c 3).trans (((dat3 (V4 m ρ) c).arrAt_in 3 rfl _).trans (A_eq3 (V4 m ρ) c 3))
    | ⟨4, _⟩ => exact (W5_arr m ρ c 4).trans (((dat3 (V4 m ρ) c).arrAt_in 4 rfl _).trans (A_eq3 (V4 m ρ) c 4))
    | ⟨5, _⟩ => exact (W5_arr m ρ c 5).trans (((dat3 (V4 m ρ) c).arrAt_in 5 rfl _).trans (A_eq3 (V4 m ρ) c 5))
    | ⟨6, _⟩ => exact absurd rfl hb
  · exact W5_of_ne m ρ c b fun w e => h ⟨w, e⟩

/-- Launch 4 writes its output array main_v54 only: every other buffer leaves the launch as it entered (an input
    window's array is read, never written back; a buffer outside the launch's windows is untouched). -/
theorem keep4 (b : Ref sig .tc) (hb : b ≠ main_v54) : W7 m ρ c (Proc.devRef .tc b) = W6 m ρ c (Proc.devRef .tc b) := by
  by_cases h : ∃ w, Pipeline.arrRef spec4 w = b
  · obtain ⟨w, rfl⟩ := h
    match w with
    | ⟨0, _⟩ => exact (W7_arr m ρ c 0).trans (((dat4 (V6 m ρ) c).arrAt_in 0 rfl _).trans (A_eq4 (V6 m ρ) c 0))
    | ⟨1, _⟩ => exact absurd rfl hb
  · exact W7_of_ne m ρ c b fun w e => h ⟨w, e⟩

/-- Launch 5 writes its output array main_v55 only: every other buffer leaves the launch as it entered (an input
    window's array is read, never written back; a buffer outside the launch's windows is untouched). -/
theorem keep5 (b : Ref sig .tc) (hb : b ≠ main_v55) : W8 m ρ c (Proc.devRef .tc b) = W7 m ρ c (Proc.devRef .tc b) := by
  by_cases h : ∃ w, Pipeline.arrRef spec5 w = b
  · obtain ⟨w, rfl⟩ := h
    match w with
    | ⟨0, _⟩ => exact (W8_arr m ρ c 0).trans (((dat5 (V7 m ρ) c).arrAt_in 0 rfl _).trans (A_eq5 (V7 m ρ) c 0))
    | ⟨1, _⟩ => exact absurd rfl hb
  · exact W8_of_ne m ρ c b fun w e => h ⟨w, e⟩

/-! ## The row lookups between the dense layers and the messages -/

/-- main_v8 holds the rows of main_arg0 at the edges' main_arg8 ends. -/
theorem lookup_main_v8 : W3 m ρ c (Proc.devRef .tc main_v8) = Cert.Spec.rows (W2 m ρ c (Proc.devRef .tc main_arg0)) (W2 m ρ c (Proc.devRef .tc main_arg8)) := by
  show StableHlo.after hostOps2 (W2 m ρ c) (Proc.devRef .tc main_v8) = _
  after_results_simp <;> rfl

/-- main_v15 holds the rows of main_arg1 at the edges' main_arg9 ends. -/
theorem lookup_main_v15 : W3 m ρ c (Proc.devRef .tc main_v15) = Cert.Spec.rows (W2 m ρ c (Proc.devRef .tc main_arg1)) (W2 m ρ c (Proc.devRef .tc main_arg9)) := by
  show StableHlo.after hostOps2 (W2 m ρ c) (Proc.devRef .tc main_v15) = _
  after_results_simp <;> rfl

/-- main_v22 holds the rows of main_v0 at the edges' main_arg8 ends. -/
theorem lookup_main_v22 : W3 m ρ c (Proc.devRef .tc main_v22) = Cert.Spec.rows (W2 m ρ c (Proc.devRef .tc main_v0)) (W2 m ρ c (Proc.devRef .tc main_arg8)) := by
  show StableHlo.after hostOps2 (W2 m ρ c) (Proc.devRef .tc main_v22) = _
  after_results_simp <;> rfl

/-- main_v29 holds the rows of main_arg1 at the edges' main_arg10 ends. -/
theorem lookup_main_v29 : W3 m ρ c (Proc.devRef .tc main_v29) = Cert.Spec.rows (W2 m ρ c (Proc.devRef .tc main_arg1)) (W2 m ρ c (Proc.devRef .tc main_arg10)) := by
  show StableHlo.after hostOps2 (W2 m ρ c) (Proc.devRef .tc main_v29) = _
  after_results_simp <;> rfl

/-- main_v36 holds the rows of main_arg0 at the edges' main_arg11 ends. -/
theorem lookup_main_v36 : W3 m ρ c (Proc.devRef .tc main_v36) = Cert.Spec.rows (W2 m ρ c (Proc.devRef .tc main_arg0)) (W2 m ρ c (Proc.devRef .tc main_arg11)) := by
  show StableHlo.after hostOps2 (W2 m ρ c) (Proc.devRef .tc main_v36) = _
  after_results_simp <;> rfl

/-- main_v43 holds the rows of main_v1 at the edges' main_arg10 ends. -/
theorem lookup_main_v43 : W3 m ρ c (Proc.devRef .tc main_v43) = Cert.Spec.rows (W2 m ρ c (Proc.devRef .tc main_v1)) (W2 m ρ c (Proc.devRef .tc main_arg10)) := by
  show StableHlo.after hostOps2 (W2 m ρ c) (Proc.devRef .tc main_v43) = _
  after_results_simp <;> rfl

/-- The lookups write their own result buffers only: the buffers the later steps still read pass through. -/
theorem lookups_keep_main_v0 : W3 m ρ c (Proc.devRef .tc main_v0) = W2 m ρ c (Proc.devRef .tc main_v0) := by
  show StableHlo.after hostOps2 (W2 m ρ c) (Proc.devRef .tc main_v0) = _
  after_results_simp
theorem lookups_keep_main_v1 : W3 m ρ c (Proc.devRef .tc main_v1) = W2 m ρ c (Proc.devRef .tc main_v1) := by
  show StableHlo.after hostOps2 (W2 m ρ c) (Proc.devRef .tc main_v1) = _
  after_results_simp
theorem lookups_keep_main_arg4 : W3 m ρ c (Proc.devRef .tc main_arg4) = W2 m ρ c (Proc.devRef .tc main_arg4) := by
  show StableHlo.after hostOps2 (W2 m ρ c) (Proc.devRef .tc main_arg4) = _
  after_results_simp
theorem lookups_keep_main_arg5 : W3 m ρ c (Proc.devRef .tc main_arg5) = W2 m ρ c (Proc.devRef .tc main_arg5) := by
  show StableHlo.after hostOps2 (W2 m ρ c) (Proc.devRef .tc main_arg5) = _
  after_results_simp
theorem lookups_keep_main_arg6 : W3 m ρ c (Proc.devRef .tc main_arg6) = W2 m ρ c (Proc.devRef .tc main_arg6) := by
  show StableHlo.after hostOps2 (W2 m ρ c) (Proc.devRef .tc main_arg6) = _
  after_results_simp
theorem lookups_keep_main_arg7 : W3 m ρ c (Proc.devRef .tc main_arg7) = W2 m ρ c (Proc.devRef .tc main_arg7) := by
  show StableHlo.after hostOps2 (W2 m ρ c) (Proc.devRef .tc main_arg7) = _
  after_results_simp
theorem lookups_keep_main_arg9 : W3 m ρ c (Proc.devRef .tc main_arg9) = W2 m ρ c (Proc.devRef .tc main_arg9) := by
  show StableHlo.after hostOps2 (W2 m ρ c) (Proc.devRef .tc main_arg9) = _
  after_results_simp
theorem lookups_keep_main_arg11 : W3 m ρ c (Proc.devRef .tc main_arg11) = W2 m ρ c (Proc.devRef .tc main_arg11) := by
  show StableHlo.after hostOps2 (W2 m ρ c) (Proc.devRef .tc main_arg11) = _
  after_results_simp

/-! ## The sums of the messages into their target rows -/

/-- main_v49: the items' dense layer plus the user→item messages summed by target. -/
theorem sum_main_v49 : W6 m ρ c (Proc.devRef .tc main_v49) = Cert.Spec.agg (W5 m ρ c (Proc.devRef .tc main_v1)) (W5 m ρ c (Proc.devRef .tc main_arg9)) (W5 m ρ c (Proc.devRef .tc main_v44)) := by
  show StableHlo.after hostOps4 (W5 m ρ c) (Proc.devRef .tc main_v49) = _
  after_results_simp <;> rfl

/-- main_v53: the users' dense layer plus the item→user messages summed by target. -/
theorem sum_main_v53 : W6 m ρ c (Proc.devRef .tc main_v53) = Cert.Spec.agg (W5 m ρ c (Proc.devRef .tc main_v0)) (W5 m ρ c (Proc.devRef .tc main_arg11)) (W5 m ρ c (Proc.devRef .tc main_v45)) := by
  show StableHlo.after hostOps4 (W5 m ρ c) (Proc.devRef .tc main_v53) = _
  after_results_simp <;> rfl

/-! ## The stacking of the two finished arrays -/

theorem stacked : W9 m ρ c (Proc.devRef .tc main_v58) = Cert.Spec.stack (W8 m ρ c (Proc.devRef .tc main_v54)) (W8 m ρ c (Proc.devRef .tc main_v55)) := by
  show StableHlo.after hostOps6 (W8 m ρ c) (Proc.devRef .tc main_v58) = _
  after_results_simp <;> rfl

end Cert.KernelIdeal.Chain

end
-- ==== Proof.RegionLin.lean ====
/-
  The two dense-layer regions, from blocks to arrays.

  Each of the two regions walks a grid of 25 points. At point t its body reads rows 6000·t … 6000·t + 5999 of an input
  array x of 150000 rows of 64 features, the whole 64 × 64 weight array W and the whole bias b of 64, and leaves in the
  same rows of its output array the entries

      Σ_k x[p, k] · Wᵀ[k, q] + b[q]        (p the row, q the feature, k over the 64 features).

  The specification's dense layer `Cert.Spec.lin x W b` has at (p, q) the same sum, over the same transposed weights,
  plus the same bias entry. The transposed weight array is never opened: both sides are read as the sum over k of
  x[p, k] · T[k, q] for one and the same array T. So what each point writes back is its block of the dense layer of the
  three input arrays, the 25 blocks cover the output array (row r lies in block r / 6000), and the output array after
  the region is the dense layer, index by index.
-/
import proofs.«133899_j52561809769216_1_alg».proof.Proof.Gen.KernelIdeal.Frame
import proofs.«133899_j52561809769216_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.RegionLin

open Cert.KernelIdeal Cert.KernelIdeal.Gen Idealize.ShloMosaic Idealize.ShloMosaic.TcCoe Idealize.SL.Sem
open Idealize.ShloMosaic.ValueIdx

/-! ## One entry of a dense layer -/

/-- Entry (p, q) of x · T + b: the sum over the 64 features k of x[p, k] · T[k, q], plus b[q]. -/
def entry {M : Nat} (x : (⟨2, ![M, 64]⟩ : Shape).Idx → EReal) (T : (⟨2, ![64, 64]⟩ : Shape).Idx → EReal)
    (b : (⟨1, ![64]⟩ : Shape).Idx → EReal) (p : Fin M) (q : Fin 64) : EReal :=
  (∑ k : Fin 64, x (ix2 p k) * T (ix2 k q)) + b (ix1 q)

/-- A contraction of the second axis of an M × 64 operand with the first axis of a 64 × 64 operand, whose sum the
    library states over the contraction shape's own index type, is at output (p, q) the sum over k : Fin 64 of
    x[p, k] · T[k, q]. The four hypotheses say which coordinate of which operand each output or contraction
    coordinate becomes. -/
theorem contr_sum {M : Nat} (d : DotDims ⟨2, ![M, 64]⟩ ⟨2, ![64, 64]⟩ ⟨2, ![M, 64]⟩) (hr : d.contr.rank = 1)
    (hs : d.contr.size ⟨0, by omega⟩ = 64)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (x : (⟨2, ![M, 64]⟩ : Shape).Idx → EReal) (T : (⟨2, ![64, 64]⟩ : Shape).Idx → EReal) (p : Fin M) (q : Fin 64) :
    ∑ k : d.contr.Idx, x (d.lhsIdx (ix2 p q) k) * T (d.rhsIdx (ix2 p q) k) = ∑ k : Fin 64, x (ix2 p k) * T (ix2 k q) := by
  rw [← Equiv.sum_comp (contrEquiv1 d 64 hr hs).symm]
  refine Finset.sum_congr rfl fun k _ => ?_
  have hk := contrEquiv1_symm_val d 64 hr hs k
  have el : d.lhsIdx (ix2 p q) ((contrEquiv1 d 64 hr hs).symm k) = ix2 p k := funext fun a => Fin.ext (by
    match a with
    | ⟨0, _⟩ => exact hl0 _ _
    | ⟨1, _⟩ => exact (hl1 _ _).trans hk)
  have er : d.rhsIdx (ix2 p q) ((contrEquiv1 d 64 hr hs).symm k) = ix2 k q := funext fun a => Fin.ext (by
    match a with
    | ⟨0, _⟩ => exact (hr0 _ _).trans hk
    | ⟨1, _⟩ => exact hr1 _ _)
  rw [el, er]

/-- A vector of 64 viewed as one row of 64 reads, at (0, q), the vector at q. -/
theorem row_apply (b : (⟨1, ![64]⟩ : Shape).Idx → EReal) (h : (⟨1, ![64]⟩ : Shape).ShapeCasts ⟨2, ![1, 64]⟩) (q : Fin 64) :
    shapeCast ⟨2, ![1, 64]⟩ b h (ix2 (0 : Fin 1) q) = b (ix1 q) :=
  shapeCast_apply b h _ _ (by
    rw [Shape.rowMajor_val_two, Shape.rowMajor_val_one]
    show q.val = 0 * 64 + q.val
    omega)

/-- The body's value at entry (p, q) of its block: the product of the block's row p with the transposed weights
    into the zero accumulator, plus the bias spread over the rows. The changes of float format are the identity on
    the extended reals. -/
theorem pay0_apply (x : Vec Ideal S6000x64 .f32) (W : Vec Ideal S64x64 .f32) (b : Vec Ideal S64 .f32)
    (h : S64x64.Transposes [1, 0] S64x64) (p : Fin 6000) (q : Fin 64) :
    k0_pay1 x W b (ix2 p q) = entry x (transpose S64x64 [1, 0] W h) b p q := by
  show addf (F := Ideal) (φ := .f32)
      (FloatOps.matmul (φ₁ := .bf16) (φ₂ := .bf16) dot_S6000x64_S64x64_S6000x64_1_0_0_1_n_n none (x : S6000x64.Idx → EReal)
        (transpose S64x64 [1, 0] (W : S64x64.Idx → EReal) h) (constant ⟨2, ![6000, 64]⟩ .f32 0x00000000#32))
      (broadcastTo ⟨2, ![6000, 64]⟩ (shapeCast ⟨2, ![1, 64]⟩ (b : S64.Idx → EReal) shapeCasts_S64_S1x64) broadcasts_S1x64_S6000x64)
      (ix2 p q) = _
  rw [addf_apply, Ideal.matmul_constant_zero_apply, broadcastTo_1b_ab_apply, row_apply,
    contr_sum dot_S6000x64_S64x64_S6000x64_1_0_0_1_n_n rfl rfl
      (fun j k => by
        unfold DotDims.lhsIdx
        rw [dif_neg (show ¬(0 : Fin S6000x64.rank) ∈ dot_S6000x64_S64x64_S6000x64_1_0_0_1_n_n.lhsBatch by decide),
          dif_pos (show (0 : Fin S6000x64.rank) ∈ dot_S6000x64_S64x64_S6000x64_1_0_0_1_n_n.lhsNonContracting by decide)]
        rfl)
      (fun j k => dot_S6000x64_S64x64_S6000x64_1_0_0_1_n_n.lhsIdx_val_of_single rfl j k)
      (fun j k => dot_S6000x64_S64x64_S6000x64_1_0_0_1_n_n.rhsIdx_val_of_single rfl j k)
      (fun j k => by
        unfold DotDims.rhsIdx
        rw [dif_neg (show ¬(1 : Fin S64x64.rank) ∈ dot_S6000x64_S64x64_S6000x64_1_0_0_1_n_n.rhsBatch by decide),
          dif_pos (show (1 : Fin S64x64.rank) ∈ dot_S6000x64_S64x64_S6000x64_1_0_0_1_n_n.rhsNonContracting by decide)]
        rfl)]
  rfl

/-- The second region's body is the same term of its three blocks, so it has the same entries. -/
theorem pay1_apply (x : Vec Ideal S6000x64 .f32) (W : Vec Ideal S64x64 .f32) (b : Vec Ideal S64 .f32)
    (h : S64x64.Transposes [1, 0] S64x64) (p : Fin 6000) (q : Fin 64) :
    k1_pay1 x W b (ix2 p q) = entry x (transpose S64x64 [1, 0] W h) b p q :=
  pay0_apply x W b h p q

/-- The specification's dense layer at entry (P, q): the host's product of row P with the transposed weights, plus
    the bias spread first to one row and then over all rows. -/
theorem lin_apply (X : (⟨Cert.ReferenceIdeal.S150000x64, .f32⟩ : BufTy).Contents (Elt Ideal))
    (W : (⟨Cert.ReferenceIdeal.S64x64, .f32⟩ : BufTy).Contents (Elt Ideal))
    (b : (⟨Cert.ReferenceIdeal.S64, .f32⟩ : BufTy).Contents (Elt Ideal))
    (h : S64x64.Transposes [1, 0] S64x64) (P : Fin 150000) (q : Fin 64) :
    Cert.Spec.lin (F := Ideal) X W b (ix2 P q) = entry X (transpose S64x64 [1, 0] W h) b P q := by
  unfold Cert.Spec.lin
  rw [addf_apply]
  simp only [Host.dotGeneral]
  rw [Ideal.dotGeneral_apply,
    contr_sum Cert.ReferenceIdeal.dot_S150000x64_S64x64_S150000x64_1_0_0_1_n_n rfl rfl
      (fun j k => by
        unfold DotDims.lhsIdx
        rw [dif_neg (show ¬(0 : Fin S150000x64.rank) ∈ Cert.ReferenceIdeal.dot_S150000x64_S64x64_S150000x64_1_0_0_1_n_n.lhsBatch by decide),
          dif_pos (show (0 : Fin S150000x64.rank) ∈ Cert.ReferenceIdeal.dot_S150000x64_S64x64_S150000x64_1_0_0_1_n_n.lhsNonContracting by decide)]
        rfl)
      (fun j k => Cert.ReferenceIdeal.dot_S150000x64_S64x64_S150000x64_1_0_0_1_n_n.lhsIdx_val_of_single rfl j k)
      (fun j k => Cert.ReferenceIdeal.dot_S150000x64_S64x64_S150000x64_1_0_0_1_n_n.rhsIdx_val_of_single rfl j k)
      (fun j k => by
        unfold DotDims.rhsIdx
        rw [dif_neg (show ¬(1 : Fin S64x64.rank) ∈ Cert.ReferenceIdeal.dot_S150000x64_S64x64_S150000x64_1_0_0_1_n_n.rhsBatch by decide),
          dif_pos (show (1 : Fin S64x64.rank) ∈ Cert.ReferenceIdeal.dot_S150000x64_S64x64_S150000x64_1_0_0_1_n_n.rhsNonContracting by decide)]
        rfl),
    broadcastInDim_apply _ _ _ (ix2 P q) (ix2 (0 : Fin 1) q) (fun a => match a with
      | ⟨0, _⟩ => rfl
      | ⟨1, _⟩ => rfl),
    broadcastInDim_apply _ _ _ (ix2 (0 : Fin 1) q) (ix1 q) (fun a => match a with
      | ⟨0, _⟩ => rfl)]
  rfl

/-! ## Reading a whole-shape access at zero offsets -/

theorem hz2 : (![0, 0] : Fin 2 → Nat) = fun _ => 0 := funext fun a => by fin_cases a <;> rfl
theorem hz1 : (![0] : Fin 1 → Nat) = fun _ => 0 := funext fun a => by fin_cases a; rfl

/-- Two entries whose rows of the left operand agree feature by feature are equal. -/
theorem entry_congr {M M' : Nat} (x : (⟨2, ![M, 64]⟩ : Shape).Idx → EReal) (X : (⟨2, ![M', 64]⟩ : Shape).Idx → EReal)
    (T : (⟨2, ![64, 64]⟩ : Shape).Idx → EReal) (b : (⟨1, ![64]⟩ : Shape).Idx → EReal) (p : Fin M) (P : Fin M') (q : Fin 64)
    (hx : ∀ k : Fin 64, x (ix2 p k) = X (ix2 P k)) : entry x T b p q = entry X T b P q := by
  unfold entry
  exact congrArg (· + b (ix1 q)) (Finset.sum_congr rfl fun k _ => by rw [hx k])

/-! ## Region 0: from blocks to the array -/

/-- The block index maps over the grid: the row blocks of the input and of the output move with the point, the
    weights' and the bias' windows stay at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A point of the grid is below 25. -/
theorem pt_lt0 (t : Fin cfg0.N) : t.val < 25 := lt_of_lt_of_eq t.isLt (show cfg0.N = 25 from N_0)

/-- Row p of the input block at point t is row 6000 · t + p of the input array. -/
theorem iblk0_0_apply (V : (c : Dev nD) → (b : Ref sig .tc) → Buf (Elt Ideal) ((c : Thread nD τ).loc b)) (c : Dev nD) (t : Fin cfg0.N) (p : Fin 6000) (k : Fin 64)
    (P : Fin 150000) (hP : P.val = 6000 * t.val + p.val) :
    (iblk0 (F := Ideal) V c 0 t : Vec Ideal S6000x64 .f32) (ix2 p k) = (V c main_arg0 : S150000x64.Idx → EReal) (ix2 P k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 6000 + 1 * p.val = P.val; rw [e0, hP]; omega
  | ⟨1, _⟩ => show win0_0.index t (1 : Fin 2) * 64 + 1 * k.val = k.val; rw [e1]; omega

/-- The weights' block at every point is the whole weight array. -/
theorem iblk0_1_eq (V : (c : Dev nD) → (b : Ref sig .tc) → Buf (Elt Ideal) ((c : Thread nD τ).loc b)) (c : Dev nD) (t : Fin cfg0.N) :
    (iblk0 (F := Ideal) V c 1 t : Vec Ideal S64x64 .f32) = (V c main_arg2 : S64x64.Idx → EReal) := by
  obtain ⟨-, -, e2, e3, -⟩ := idx_facts0 t
  funext y
  unfold iblk0
  rw [View.read_apply]
  show V c main_arg2 _ = V c main_arg2 y
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- The bias' block at every point is the whole bias array. -/
theorem iblk0_2_eq (V : (c : Dev nD) → (b : Ref sig .tc) → Buf (Elt Ideal) ((c : Thread nD τ).loc b)) (c : Dev nD) (t : Fin cfg0.N) :
    (iblk0 (F := Ideal) V c 2 t : Vec Ideal S64 .f32) = (V c main_arg3 : S64.Idx → EReal) := by
  obtain ⟨-, -, -, -, e4, -⟩ := idx_facts0 t
  funext y
  unfold iblk0
  rw [View.read_apply]
  show V c main_arg3 _ = V c main_arg3 y
  congr 1
  funext a
  apply Fin.ext
  match a with
  | ⟨0, _⟩ => show win0_2.index t (0 : Fin 1) * 64 + 1 * (y 0).val = (y 0).val; rw [e4]; omega

/-- What point t writes back is block t of the dense layer of the region's three input arrays. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Cert.Spec.lin (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S6000x64) hz2, View.ld_unit_zero (S := S64x64) hz2, View.ld_unit_zero (S := S64) hz1]
  rw [iblk0_1_eq, iblk0_2_eq]
  obtain ⟨-, -, -, -, -, e5, e6⟩ := idx_facts0 t
  have ht := pt_lt0 t
  funext j
  obtain ⟨p, q, rfl⟩ : ∃ (p : Fin 6000) (q : Fin 64), j = ix2 p q := ⟨j 0, j 1, eq_ix2 (n0 := 6000) (n1 := 64) j⟩
  have hp : p.val < 6000 := p.isLt
  have hemb : ((cfg0.win 3).blk t).view.emb (ix2 p q) = ix2 (⟨6000 * t.val + p.val, by omega⟩ : Fin 150000) q := by
    funext a
    apply Fin.ext
    match a with
    | ⟨0, _⟩ => show win0_3.index t (0 : Fin 2) * 6000 + 1 * p.val = 6000 * t.val + p.val; rw [e5]; omega
    | ⟨1, _⟩ => show win0_3.index t (1 : Fin 2) * 64 + 1 * q.val = q.val; rw [e6]; omega
  show k0_pay1 (iblk0 V c 0 t) (V c main_arg2) (V c main_arg3) (ix2 p q)
    = Cert.Spec.lin (F := Ideal) (V c main_arg0) (V c main_arg2) (V c main_arg3) (((cfg0.win 3).blk t).view.emb (ix2 p q))
  rw [hemb]
  refine (pay0_apply _ _ _ transposes_S64x64_p1_0_S64x64 p q).trans ?_
  refine Eq.trans ?_ (lin_apply _ _ _ transposes_S64x64_p1_0_S64x64 _ q).symm
  exact entry_congr _ _ _ _ p _ q fun k => iblk0_0_apply V c t p k _ rfl

/-- An index of the output array is in point t's block iff each coordinate is in the block's range on its axis. -/
theorem mem_blk0 (t : Fin cfg0.N) (i : S150000x64.Idx) :
    i ∈ ((cfg0.win 3).blk t).view.set ↔ ∀ a : Fin 2, win0_3.index t a * S6000x64.size a ≤ (i a).val
      ∧ (i a).val < win0_3.index t a * S6000x64.size a + S6000x64.size a := by
  show i ∈ ((View.whole main_v0).slice (win0_3.rect t)).set ↔ _
  rw [View.set_slice_whole, Rect.mem_set_unit]
  exact Iff.rfl

/-- Every index of the output array is in the block of a point that writes back: row r is in block r / 6000. -/
theorem cover0 (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  have hN : (i 0).val / 6000 < cfg0.N := by rw [show cfg0.N = 25 from N_0]; omega
  obtain ⟨-, -, -, -, -, e5, e6⟩ := idx_facts0 ⟨(i 0).val / 6000, hN⟩
  refine ⟨⟨(i 0).val / 6000, hN⟩, flush0_3 _, ?_⟩
  rw [mem_blk0]
  intro a
  match a with
  | ⟨0, _⟩ =>
    show win0_3.index ⟨(i 0).val / 6000, hN⟩ (0 : Fin 2) * 6000 ≤ (i 0).val
      ∧ (i 0).val < win0_3.index ⟨(i 0).val / 6000, hN⟩ (0 : Fin 2) * 6000 + 6000
    rw [e5]
    show (i 0).val / 6000 * 6000 ≤ (i 0).val ∧ (i 0).val < (i 0).val / 6000 * 6000 + 6000
    omega
  | ⟨1, _⟩ =>
    show win0_3.index ⟨(i 0).val / 6000, hN⟩ (1 : Fin 2) * 64 ≤ (i 1).val
      ∧ (i 1).val < win0_3.index ⟨(i 0).val / 6000, hN⟩ (1 : Fin 2) * 64 + 64
    rw [e6]
    omega

/-- After region 0 its output array is the dense layer of its three input arrays as the region found them. -/
theorem lin0 (V : (c : Dev nD) → (b : Ref sig .tc) → Buf (Elt Ideal) ((c : Thread nD τ).loc b)) (c : Dev nD) :
    (dat0 (F := Ideal) V c).arrAt 3 cfg0.N = Cert.Spec.lin (F := Ideal) (V c main_arg0) (V c main_arg2) (V c main_arg3) :=
  (dat0 (F := Ideal) V c).arrAt_eq_of_cover 3 (Cert.Spec.lin (F := Ideal) (V c main_arg0) (V c main_arg2) (V c main_arg3))
    (fun t _ => flushed0_eq V c t) cover0

/-! ## Region 1: from blocks to the array -/

/-- The block index maps over the grid: the row blocks of the input and of the output move with the point, the
    weights' and the bias' windows stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- A point of the grid is below 25. -/
theorem pt_lt1 (t : Fin cfg1.N) : t.val < 25 := lt_of_lt_of_eq t.isLt (show cfg1.N = 25 from N_1)

/-- Row p of the input block at point t is row 6000 · t + p of the input array. -/
theorem iblk1_0_apply (V : (c : Dev nD) → (b : Ref sig .tc) → Buf (Elt Ideal) ((c : Thread nD τ).loc b)) (c : Dev nD) (t : Fin cfg1.N) (p : Fin 6000) (k : Fin 64)
    (P : Fin 150000) (hP : P.val = 6000 * t.val + p.val) :
    (iblk1 (F := Ideal) V c 0 t : Vec Ideal S6000x64 .f32) (ix2 p k) = (V c main_arg1 : S150000x64.Idx → EReal) (ix2 P k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 6000 + 1 * p.val = P.val; rw [e0, hP]; omega
  | ⟨1, _⟩ => show win1_0.index t (1 : Fin 2) * 64 + 1 * k.val = k.val; rw [e1]; omega

/-- The weights' block at every point is the whole weight array. -/
theorem iblk1_1_eq (V : (c : Dev nD) → (b : Ref sig .tc) → Buf (Elt Ideal) ((c : Thread nD τ).loc b)) (c : Dev nD) (t : Fin cfg1.N) :
    (iblk1 (F := Ideal) V c 1 t : Vec Ideal S64x64 .f32) = (V c main_arg2 : S64x64.Idx → EReal) := by
  obtain ⟨-, -, e2, e3, -⟩ := idx_facts1 t
  funext y
  unfold iblk1
  rw [View.read_apply]
  show V c main_arg2 _ = V c main_arg2 y
  congr 1
  funext a
  apply Fin.ext
  match a with
  | ⟨0, _⟩ => show win1_1.index t (0 : Fin 2) * 64 + 1 * (y 0).val = (y 0).val; rw [e2]; omega
  | ⟨1, _⟩ => show win1_1.index t (1 : Fin 2) * 64 + 1 * (y 1).val = (y 1).val; rw [e3]; omega

/-- The bias' block at every point is the whole bias array. -/
theorem iblk1_2_eq (V : (c : Dev nD) → (b : Ref sig .tc) → Buf (Elt Ideal) ((c : Thread nD τ).loc b)) (c : Dev nD) (t : Fin cfg1.N) :
    (iblk1 (F := Ideal) V c 2 t : Vec Ideal S64 .f32) = (V c main_arg3 : S64.Idx → EReal) := by
  obtain ⟨-, -, -, -, e4, -⟩ := idx_facts1 t
  funext y
  unfold iblk1
  rw [View.read_apply]
  show V c main_arg3 _ = V c main_arg3 y
  congr 1
  funext a
  apply Fin.ext
  match a with
  | ⟨0, _⟩ => show win1_2.index t (0 : Fin 1) * 64 + 1 * (y 0).val = (y 0).val; rw [e4]; omega

/-- What point t writes back is block t of the dense layer of the region's three input arrays. -/
theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (Cert.Spec.lin (F := Ideal) (V c main_arg1) (V c main_arg2) (V c main_arg3)) := by
  show (cfg1.win 3).cut (grid1.coords t) ((dat1 V c).after 3 t) = _
  rw [after1_3]
  unfold out1_3
  rw [View.canon_unit_zero hz2]
  simp only [View.ld_unit_zero (S := S6000x64) hz2, View.ld_unit_zero (S := S64x64) hz2, View.ld_unit_zero (S := S64) hz1]
  rw [iblk1_1_eq, iblk1_2_eq]
  obtain ⟨-, -, -, -, -, e5, e6⟩ := idx_facts1 t
  have ht := pt_lt1 t
  funext j
  obtain ⟨p, q, rfl⟩ : ∃ (p : Fin 6000) (q : Fin 64), j = ix2 p q := ⟨j 0, j 1, eq_ix2 (n0 := 6000) (n1 := 64) j⟩
  have hp : p.val < 6000 := p.isLt
  have hemb : ((cfg1.win 3).blk t).view.emb (ix2 p q) = ix2 (⟨6000 * t.val + p.val, by omega⟩ : Fin 150000) q := by
    funext a
    apply Fin.ext
    match a with
    | ⟨0, _⟩ => show win1_3.index t (0 : Fin 2) * 6000 + 1 * p.val = 6000 * t.val + p.val; rw [e5]; omega
    | ⟨1, _⟩ => show win1_3.index t (1 : Fin 2) * 64 + 1 * q.val = q.val; rw [e6]; omega
  show k1_pay1 (iblk1 V c 0 t) (V c main_arg2) (V c main_arg3) (ix2 p q)
    = Cert.Spec.lin (F := Ideal) (V c main_arg1) (V c main_arg2) (V c main_arg3) (((cfg1.win 3).blk t).view.emb (ix2 p q))
  rw [hemb]
  refine (pay1_apply _ _ _ transposes_S64x64_p1_0_S64x64 p q).trans ?_
  refine Eq.trans ?_ (lin_apply _ _ _ transposes_S64x64_p1_0_S64x64 _ q).symm
  exact entry_congr _ _ _ _ p _ q fun k => iblk1_0_apply V c t p k _ rfl

/-- An index of the output array is in point t's block iff each coordinate is in the block's range on its axis. -/
theorem mem_blk1 (t : Fin cfg1.N) (i : S150000x64.Idx) :
    i ∈ ((cfg1.win 3).blk t).view.set ↔ ∀ a : Fin 2, win1_3.index t a * S6000x64.size a ≤ (i a).val
      ∧ (i a).val < win1_3.index t a * S6000x64.size a + S6000x64.size a := by
  show i ∈ ((View.whole main_v1).slice (win1_3.rect t)).set ↔ _
  rw [View.set_slice_whole, Rect.mem_set_unit]
  exact Iff.rfl

/-- Every index of the output array is in the block of a point that writes back: row r is in block r / 6000. -/
theorem cover1 (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  have hN : (i 0).val / 6000 < cfg1.N := by rw [show cfg1.N = 25 from N_1]; omega
  obtain ⟨-, -, -, -, -, e5, e6⟩ := idx_facts1 ⟨(i 0).val / 6000, hN⟩
  refine ⟨⟨(i 0).val / 6000, hN⟩, flush1_3 _, ?_⟩
  rw [mem_blk1]
  intro a
  match a with
  | ⟨0, _⟩ =>
    show win1_3.index ⟨(i 0).val / 6000, hN⟩ (0 : Fin 2) * 6000 ≤ (i 0).val
      ∧ (i 0).val < win1_3.index ⟨(i 0).val / 6000, hN⟩ (0 : Fin 2) * 6000 + 6000
    rw [e5]
    show (i 0).val / 6000 * 6000 ≤ (i 0).val ∧ (i 0).val < (i 0).val / 6000 * 6000 + 6000
    omega
  | ⟨1, _⟩ =>
    show win1_3.index ⟨(i 0).val / 6000, hN⟩ (1 : Fin 2) * 64 ≤ (i 1).val
      ∧ (i 1).val < win1_3.index ⟨(i 0).val / 6000, hN⟩ (1 : Fin 2) * 64 + 64
    rw [e6]
    omega

/-- After region 1 its output array is the dense layer of its three input arrays as the region found them. -/
theorem lin1 (V : (c : Dev nD) → (b : Ref sig .tc) → Buf (Elt Ideal) ((c : Thread nD τ).loc b)) (c : Dev nD) :
    (dat1 (F := Ideal) V c).arrAt 3 cfg1.N = Cert.Spec.lin (F := Ideal) (V c main_arg1) (V c main_arg2) (V c main_arg3) :=
  (dat1 (F := Ideal) V c).arrAt_eq_of_cover 3 (Cert.Spec.lin (F := Ideal) (V c main_arg1) (V c main_arg2) (V c main_arg3))
    (fun t _ => flushed1_eq V c t) cover1

end Cert.KernelIdeal.RegionLin

end
-- ==== Proof.RegionMsg.lean ====
/-
  The two message regions of the kernel program, read as whole arrays.

  Each of the two regions runs the same body over a grid of 250 points. At point t it loads rows 4000·t … 4000·t + 3999
  of four per-edge arrays (two gathered feature arrays u and v, the gathered dense layer g, all of 64 lanes, and the
  edge weights' column norm), together with the whole 64 × 64 weight matrix W and the bias b of 64 entries, and stores
  rows 4000·t … 4000·t + 3999 of the output. The stored entry of row p, lane q is

      norm[e] · ((g[e, q] + Σ_k (u[e, k] · v[e, k]) · W[q, k]) + b[q]),        e = 4000·t + p,

  where the sum over the 64 features k is the body's product of the block u ⊙ v with the transposed weights into a
  zero accumulator (rounding the product's operands to bf16 is the identity on the extended reals). The per-edge message
  array `Cert.Spec.msg` of the same six arrays has the same entry at (e, q): its broadcasts read the weights' column at row e
  and the bias at lane q, and the host's product is the same sum over k. So what each point writes back is its block of
  the message array; the 250 blocks cover the million rows (row r lies in the block of point r / 4000); hence the
  output array after the region is the message array.

  Order of the file: the layout operations and the two products read at an entry; the body's arithmetic and the
  message array at an entry, both as one expression `edgeValue` of the entries they depend on; then, for each region,
  each window's block as rows of its array, the written-back block, the cover, and the array after the region.
-/
import proofs.«133899_j52561809769216_1_alg».proof.Proof.Gen.KernelIdeal.Frame
import proofs.«133899_j52561809769216_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.RegionMsg

open Cert.KernelIdeal Cert.KernelIdeal.Gen Idealize.ShloMosaic Idealize.ShloMosaic.TcCoe Idealize.SL.Sem
open Idealize.ShloMosaic.ValueIdx

/-! ## Layout operations read at an entry -/

/-- A column `[a, 1]` spread over `b` lanes reads, at `(p, c)`, the column's entry of row `p`. -/
theorem column_spread_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's product read at an entry -/

/-- The body's product of a 4000 × 64 block with a 64 × 64 matrix into the zero accumulator, at entry `(p, q)`:
    the sum over the 64 features `k` of `L[p, k] · R[k, q]`. -/
theorem block_product_apply (L : FVec Ideal S4000x64 .bf16) (R : FVec Ideal S64x64 .bf16) (p : Fin 4000) (q : Fin 64) :
    matmul dot_S4000x64_S64x64_S4000x64_1_0_0_1_n_n none L R (constant S4000x64 .f32 0x00000000#32) (ix2 p q)
      = ∑ k : Fin 64, L (ix2 p k) * R (ix2 k q) := by
  refine (Ideal.matmul_constant_zero_apply dot_S4000x64_S64x64_S4000x64_1_0_0_1_n_n none L R (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q)
      ((contrEquiv1 dot_S4000x64_S64x64_S4000x64_1_0_0_1_n_n 64 rfl rfl).symm k) = ix2 p k := funext fun a => Fin.ext (by
    match a with
    | ⟨0, _⟩ => rfl
    | ⟨1, _⟩ => exact (dot_S4000x64_S64x64_S4000x64_1_0_0_1_n_n.lhsIdx_val_of_single (cl := 1) rfl (ix2 p q) _).trans hk)
  have er : dot_S4000x64_S64x64_S4000x64_1_0_0_1_n_n.rhsIdx (ix2 p q)
      ((contrEquiv1 dot_S4000x64_S64x64_S4000x64_1_0_0_1_n_n 64 rfl rfl).symm k) = ix2 k q := funext fun a => Fin.ext (by
    match a with
    | ⟨0, _⟩ => exact (dot_S4000x64_S64x64_S4000x64_1_0_0_1_n_n.rhsIdx_val_of_single (cr := 0) rfl (ix2 p q) _).trans hk
    | ⟨1, _⟩ => rfl)
  rw [el, er]

/-! ## The body's arithmetic at an entry -/

/-- The value both programs give an edge `e` in lane `q`, from the edge's weight `nv`, its gathered dense-layer entry
    `gv`, the bias entry `bv`, the edge's two feature rows `uv`, `vv` and column `q` of the transposed weights `wv`:
    `nv · ((gv + Σ_k (uv k · vv k) · wv k) + bv)`. -/
def edgeValue (nv gv bv : EReal) (uv vv wv : Fin 64 → EReal) : EReal :=
  nv * ((gv + ∑ k : Fin 64, (uv k * vv k) * wv k) + bv)

/-- The body's stored block at entry `(p, q)`, from its six loaded blocks (in the order the body loads them: the two
    feature blocks, the weights, the edge weights' column, the gathered dense layer, the bias): row `p` of each row block,
    the whole weight matrix and bias. The three same-shape casts are identities; rounding to bf16 is the identity on
    the extended reals; the product into the zero accumulator is the sum over the 64 features. -/
theorem pay_apply (u v : FVec Ideal S4000x64 .f32) (W : FVec Ideal S64x64 .f32) (n : FVec Ideal S4000x1 .f32)
    (g : FVec Ideal S4000x64 .f32) (b : FVec Ideal S64 .f32) (p : Fin 4000) (q : Fin 64) :
    k2_pay1 (F := Ideal) u v W n g b (ix2 p q)
      = edgeValue (n (ix2 p (0 : Fin 1))) (g (ix2 p q)) (b (ix1 q)) (fun k => u (ix2 p k)) (fun k => v (ix2 p k))
          (fun k => W (ix2 q k)) := by
  unfold k2_pay1
  rw [shapeCast_self, shapeCast_self, shapeCast_self, mulf_apply, addf_apply, addf_apply]
  have e1 := column_spread_apply n broadcasts_S4000x1_S4000x64 p q
  have e2 := block_product_apply (truncf .bf16 (mulf u v) bitsLt_bf16_f32)
    (transpose S64x64 [1, 0] (truncf .bf16 W bitsLt_bf16_f32) transposes_S64x64_p1_0_S64x64) p q
  have e3 : broadcastTo S4000x64 (shapeCast S1x64 b shapeCasts_S64_S1x64) broadcasts_S1x64_S4000x64 (ix2 p q) = b (ix1 q) :=
    (broadcastTo_1b_ab_apply _ broadcasts_S1x64_S4000x64 p q).trans (shapeCast_a_1a_apply b shapeCasts_S64_S1x64 0 q)
  have e4 : ∀ k : Fin 64, transpose S64x64 [1, 0] (truncf .bf16 W bitsLt_bf16_f32) transposes_S64x64_p1_0_S64x64 (ix2 k q)
      = W (ix2 q k) := fun k => transpose_ix2_apply _ transposes_S64x64_p1_0_S64x64 k q
  rw [e1, e2, e3]
  simp only [e4]
  rfl

/-- The second region's body is the same arithmetic. -/
theorem pay_apply3 (u v : FVec Ideal S4000x64 .f32) (W : FVec Ideal S64x64 .f32) (n : FVec Ideal S4000x1 .f32)
    (g : FVec Ideal S4000x64 .f32) (b : FVec Ideal S64 .f32) (p : Fin 4000) (q : Fin 64) :
    k3_pay1 (F := Ideal) u v W n g b (ix2 p q)
      = edgeValue (n (ix2 p (0 : Fin 1))) (g (ix2 p q)) (b (ix1 q)) (fun k => u (ix2 p k)) (fun k => v (ix2 p k))
          (fun k => W (ix2 q k)) :=
  pay_apply u v W n g b p q

/-! ## The whole-array function at an entry -/

/-- The host's product of the million edge rows with a 64 × 64 matrix, at entry `(e, q)`: the same sum over the 64
    features. -/
theorem edge_product_apply (L : FVec Ideal Cert.ReferenceIdeal.S1000000x64 .f32) (R : FVec Ideal Cert.ReferenceIdeal.S64x64 .f32)
    (e : Fin 1000000) (q : Fin 64) :
    Host.dotGeneral Cert.ReferenceIdeal.dot_S1000000x64_S64x64_S1000000x64_1_0_0_1_n_n none L R (ix2 e q)
      = ∑ k : Fin 64, L (ix2 e k) * R (ix2 k q) := by
  refine (Ideal.dotGeneral_apply Cert.ReferenceIdeal.dot_S1000000x64_S64x64_S1000000x64_1_0_0_1_n_n none _ L R (ix2 e q)).trans ?_
  rw [← Equiv.sum_comp (contrEquiv1 Cert.ReferenceIdeal.dot_S1000000x64_S64x64_S1000000x64_1_0_0_1_n_n 64 rfl rfl).symm]
  refine Finset.sum_congr rfl fun k _ => ?_
  have hk := contrEquiv1_symm_val Cert.ReferenceIdeal.dot_S1000000x64_S64x64_S1000000x64_1_0_0_1_n_n 64 rfl rfl k
  have el : Cert.ReferenceIdeal.dot_S1000000x64_S64x64_S1000000x64_1_0_0_1_n_n.lhsIdx (ix2 e q)
      ((contrEquiv1 Cert.ReferenceIdeal.dot_S1000000x64_S64x64_S1000000x64_1_0_0_1_n_n 64 rfl rfl).symm k) = ix2 e k :=
    funext fun a => Fin.ext (by
      match a with
      | ⟨0, _⟩ => rfl
      | ⟨1, _⟩ =>
        exact (Cert.ReferenceIdeal.dot_S1000000x64_S64x64_S1000000x64_1_0_0_1_n_n.lhsIdx_val_of_single (cl := 1) rfl (ix2 e q) _).trans hk)
  have er : Cert.ReferenceIdeal.dot_S1000000x64_S64x64_S1000000x64_1_0_0_1_n_n.rhsIdx (ix2 e q)
      ((contrEquiv1 Cert.ReferenceIdeal.dot_S1000000x64_S64x64_S1000000x64_1_0_0_1_n_n 64 rfl rfl).symm k) = ix2 k q :=
    funext fun a => Fin.ext (by
      match a with
      | ⟨0, _⟩ =>
        exact (Cert.ReferenceIdeal.dot_S1000000x64_S64x64_S1000000x64_1_0_0_1_n_n.rhsIdx_val_of_single (cr := 0) rfl (ix2 e q) _).trans hk
      | ⟨1, _⟩ => rfl)
  rw [el, er]

/-- The per-edge message array at entry `(e, q)`: the edge's weight times (its gathered dense-layer entry, plus the
    feature rows' product against column `q` of the transposed weights, plus the bias entry). -/
theorem msg_apply (u v g : FVec Ideal Cert.ReferenceIdeal.S1000000x64 .f32) (n : FVec Ideal Cert.ReferenceIdeal.S1000000x1 .f32)
    (W : FVec Ideal Cert.ReferenceIdeal.S64x64 .f32) (b : FVec Ideal Cert.ReferenceIdeal.S64 .f32) (e : Fin 1000000) (q : Fin 64) :
    Cert.Spec.msg (F := Ideal) u v g n W b (ix2 e q)
      = edgeValue (n (ix2 e (0 : Fin 1))) (g (ix2 e q)) (b (ix1 q)) (fun k => u (ix2 e k)) (fun k => v (ix2 e k))
          (fun k => W (ix2 q k)) := by
  unfold Cert.Spec.msg
  rw [mulf_apply, addf_apply, addf_apply, edge_product_apply]
  have e1 : ∀ h, broadcastInDim Cert.ReferenceIdeal.S1000000x64 ![0, 1] h n (ix2 e q) = n (ix2 e (0 : Fin 1)) := fun h =>
    broadcastInDim_apply _ h n (ix2 e q) (ix2 e (0 : Fin 1)) (fun a => match a with
      | ⟨0, _⟩ => by show e.val = if (1000000 : Nat) = 1 then 0 else e.val; rw [if_neg (by decide)]
      | ⟨1, _⟩ => by show 0 = if (1 : Nat) = 1 then 0 else q.val; rw [if_pos rfl])
  have e3 : ∀ h h', broadcastInDim Cert.ReferenceIdeal.S1000000x64 ![0, 1] h
      (broadcastInDim Cert.ReferenceIdeal.S1x64 ![1] h' b) (ix2 e q) = b (ix1 q) := fun h h' =>
    (broadcastInDim_apply _ h _ (ix2 e q) (ix2 (0 : Fin 1) q) (fun a => match a with
      | ⟨0, _⟩ => by show 0 = if (1 : Nat) = 1 then 0 else e.val; rw [if_pos rfl]
      | ⟨1, _⟩ => by show q.val = if (64 : Nat) = 1 then 0 else q.val; rw [if_neg (by decide)])).trans
    (broadcastInDim_apply _ h' b (ix2 (0 : Fin 1) q) (ix1 q) (fun a => match a with
      | ⟨0, _⟩ => by show q.val = if (64 : Nat) = 1 then 0 else q.val; rw [if_neg (by decide)]))
  have e4 : ∀ h (k : Fin 64), transpose Cert.ReferenceIdeal.S64x64 [1, 0] W h (ix2 k q) = W (ix2 q k) := fun h k =>
    transpose_ix2_apply W h k q
  rw [e1, e3]
  simp only [e4]
  rfl

/-! ## From blocks to the array -/

/-- The zero offsets of a whole-block access, as the constant function. -/
theorem hz2 : (![0, 0] : Fin 2 → Nat) = fun _ => 0 := funext fun a => by fin_cases a <;> rfl
theorem hz1 : (![0] : Fin 1 → Nat) = fun _ => 0 := funext fun a => by fin_cases a; rfl

/-! ### The first region -/

/-- The index maps over the grid: the four row windows and the output move one block of 4000 rows per point, on
    lane block 0; the weights and the bias stay at block 0. -/
theorem idx_facts2 : ∀ t : Fin cfg2.N,
      (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ win2_5.index t (0 : Fin 1) = 0
    ∧ (win2_6.index t (0 : Fin 2) = t.val ∧ win2_6.index t (1 : Fin 2) = 0) :=
  (by decide +kernel : ∀ t : Fin grid2.N, _)

theorem lt_points2 (t : Fin cfg2.N) : t.val < 250 := lt_of_lt_of_eq t.isLt N_2

section Region2
variable (V : (c : Dev nD) → (b : Ref sig .tc) → Buf (Elt Ideal) ((c : Thread nD τ).loc b)) (c : Dev nD)

/-- Row `p` of point `t`'s block of the first feature array is row `4000·t + p` of the array. -/
theorem rows2_0 (t : Fin cfg2.N) (p : Fin 4000) (k : Fin 64) (e : Fin 1000000) (he : e.val = 4000 * t.val + p.val) :
    (iblk2 (F := Ideal) V c 0 t : FVec Ideal S4000x64 .f32) (ix2 p k) = (V c main_v8 : FVec Ideal S1000000x64 .f32) (ix2 e k) := by
  obtain ⟨⟨h0, h1⟩, -⟩ := idx_facts2 t
  show V c main_v8 (((cfg2.win 0).blk t).view.emb (ix2 p k)) = V c main_v8 (ix2 e k)
  refine congrArg (V c main_v8) (funext fun a => Fin.ext ?_)
  match a with
  | ⟨0, _⟩ => show win2_0.index t (0 : Fin 2) * 4000 + 1 * p.val = e.val; rw [h0, he]; omega
  | ⟨1, _⟩ => show win2_0.index t (1 : Fin 2) * 64 + 1 * k.val = k.val; rw [h1]; omega

/-- The same for the second feature array. -/
theorem rows2_1 (t : Fin cfg2.N) (p : Fin 4000) (k : Fin 64) (e : Fin 1000000) (he : e.val = 4000 * t.val + p.val) :
    (iblk2 (F := Ideal) V c 1 t : FVec Ideal S4000x64 .f32) (ix2 p k) = (V c main_v15 : FVec Ideal S1000000x64 .f32) (ix2 e k) := by
  obtain ⟨-, ⟨h0, h1⟩, -⟩ := idx_facts2 t
  show V c main_v15 (((cfg2.win 1).blk t).view.emb (ix2 p k)) = V c main_v15 (ix2 e k)
  refine congrArg (V c main_v15) (funext fun a => Fin.ext ?_)
  match a with
  | ⟨0, _⟩ => show win2_1.index t (0 : Fin 2) * 4000 + 1 * p.val = e.val; rw [h0, he]; omega
  | ⟨1, _⟩ => show win2_1.index t (1 : Fin 2) * 64 + 1 * k.val = k.val; rw [h1]; omega

/-- The same for the gathered dense layer. -/
theorem rows2_2 (t : Fin cfg2.N) (p : Fin 4000) (k : Fin 64) (e : Fin 1000000) (he : e.val = 4000 * t.val + p.val) :
    (iblk2 (F := Ideal) V c 2 t : FVec Ideal S4000x64 .f32) (ix2 p k) = (V c main_v22 : FVec Ideal S1000000x64 .f32) (ix2 e k) := by
  obtain ⟨-, -, ⟨h0, h1⟩, -⟩ := idx_facts2 t
  show V c main_v22 (((cfg2.win 2).blk t).view.emb (ix2 p k)) = V c main_v22 (ix2 e k)
  refine congrArg (V c main_v22) (funext fun a => Fin.ext ?_)
  match a with
  | ⟨0, _⟩ => show win2_2.index t (0 : Fin 2) * 4000 + 1 * p.val = e.val; rw [h0, he]; omega
  | ⟨1, _⟩ => show win2_2.index t (1 : Fin 2) * 64 + 1 * k.val = k.val; rw [h1]; omega

/-- Row `p` of point `t`'s block of the edge weights' column is row `4000·t + p` of the column. -/
theorem rows2_3 (t : Fin cfg2.N) (p : Fin 4000) (z : Fin 1) (e : Fin 1000000) (he : e.val = 4000 * t.val + p.val) :
    (iblk2 (F := Ideal) V c 3 t : FVec Ideal S4000x1 .f32) (ix2 p z) = (V c main_arg6 : FVec Ideal S1000000x1 .f32) (ix2 e z) := by
  obtain ⟨-, -, -, ⟨h0, h1⟩, -⟩ := idx_facts2 t
  show V c main_arg6 (((cfg2.win 3).blk t).view.emb (ix2 p z)) = V c main_arg6 (ix2 e z)
  refine congrArg (V c main_arg6) (funext fun a => Fin.ext ?_)
  match a with
  | ⟨0, _⟩ => show win2_3.index t (0 : Fin 2) * 4000 + 1 * p.val = e.val; rw [h0, he]; omega
  | ⟨1, _⟩ => show win2_3.index t (1 : Fin 2) * 1 + 1 * z.val = z.val; rw [h1]; omega

/-- The weights' block at every point is the whole weight matrix. -/
theorem whole2_4 (t : Fin cfg2.N) (q k : Fin 64) :
    (iblk2 (F := Ideal) V c 4 t : FVec Ideal S64x64 .f32) (ix2 q k) = (V c main_arg4 : FVec Ideal S64x64 .f32) (ix2 q k) := by
  obtain ⟨-, -, -, -, ⟨h0, h1⟩, -⟩ := idx_facts2 t
  show V c main_arg4 (((cfg2.win 4).blk t).view.emb (ix2 q k)) = V c main_arg4 (ix2 q k)
  refine congrArg (V c main_arg4) (funext fun a => Fin.ext ?_)
  match a with
  | ⟨0, _⟩ => show win2_4.index t (0 : Fin 2) * 64 + 1 * q.val = q.val; rw [h0]; omega
  | ⟨1, _⟩ => show win2_4.index t (1 : Fin 2) * 64 + 1 * k.val = k.val; rw [h1]; omega

/-- The bias's block at every point is the whole bias. -/
theorem whole2_5 (t : Fin cfg2.N) (q : Fin 64) :
    (iblk2 (F := Ideal) V c 5 t : FVec Ideal S64 .f32) (ix1 q) = (V c main_arg5 : FVec Ideal S64 .f32) (ix1 q) := by
  obtain ⟨-, -, -, -, -, h0, -⟩ := idx_facts2 t
  show V c main_arg5 (((cfg2.win 5).blk t).view.emb (ix1 q)) = V c main_arg5 (ix1 q)
  refine congrArg (V c main_arg5) (funext fun a => Fin.ext ?_)
  match a with
  | ⟨0, _⟩ => show win2_5.index t (0 : Fin 1) * 64 + 1 * q.val = q.val; rw [h0]; omega

/-- Row `p`, lane `q` of point `t`'s block of the output is row `4000·t + p`, lane `q` of the output array. -/
theorem out_emb2 (t : Fin cfg2.N) (p : Fin 4000) (q : Fin 64) (e : Fin 1000000) (he : e.val = 4000 * t.val + p.val) :
    ((cfg2.win 6).blk t).view.emb (ix2 p q) = (ix2 e q : S1000000x64.Idx) := by
  obtain ⟨-, -, -, -, -, -, ⟨h0, h1⟩⟩ := idx_facts2 t
  refine funext fun a => Fin.ext ?_
  match a with
  | ⟨0, _⟩ => show win2_6.index t (0 : Fin 2) * 4000 + 1 * p.val = e.val; rw [h0, he]; omega
  | ⟨1, _⟩ => show win2_6.index t (1 : Fin 2) * 64 + 1 * q.val = q.val; rw [h1]; omega

/-- What point `t` writes back is block `t` of the message array of the region's six input arrays. -/
theorem flushed2_eq (t : Fin cfg2.N) :
    (dat2 (F := Ideal) V c).flushed 6 t = ((cfg2.win 6).blk t).view.read (Elt Ideal)
      (Cert.Spec.msg (F := Ideal) (V c main_v8) (V c main_v15) (V c main_v22) (V c main_arg6) (V c main_arg4) (V c main_arg5)) := by
  show (cfg2.win 6).cut (grid2.coords t) ((dat2 V c).after 6 t) = _
  rw [after2_6]
  unfold out2_6
  rw [View.canon_unit_zero hz2]
  simp only [View.ld_unit_zero (S := S4000x64) hz2, View.ld_unit_zero (S := S64x64) hz2, View.ld_unit_zero (S := S4000x1) hz2,
    View.ld_unit_zero (S := S64) hz1]
  funext j
  obtain ⟨p, q, rfl⟩ : ∃ (p : Fin 4000) (q : Fin 64), j = ix2 p q := ⟨j 0, j 1, eq_ix2 j⟩
  have ht := lt_points2 t
  obtain ⟨e, he⟩ : ∃ e : Fin 1000000, e.val = 4000 * t.val + p.val :=
    ⟨⟨4000 * t.val + p.val, by have := p.isLt; omega⟩, rfl⟩
  show k2_pay1 (F := Ideal) (iblk2 V c 0 t) (iblk2 V c 1 t) (iblk2 V c 4 t) (iblk2 V c 3 t) (iblk2 V c 2 t) (iblk2 V c 5 t) (ix2 p q)
    = Cert.Spec.msg (F := Ideal) (V c main_v8) (V c main_v15) (V c main_v22) (V c main_arg6) (V c main_arg4) (V c main_arg5)
        (((cfg2.win 6).blk t).view.emb (ix2 p q))
  rw [out_emb2 t p q e he]
  refine (pay_apply (iblk2 V c 0 t) (iblk2 V c 1 t) (iblk2 V c 4 t) (iblk2 V c 3 t) (iblk2 V c 2 t) (iblk2 V c 5 t) p q).trans ?_
  refine Eq.trans ?_ (msg_apply (V c main_v8) (V c main_v15) (V c main_v22) (V c main_arg6) (V c main_arg4) (V c main_arg5) e q).symm
  exact congr (congr (congr (congr (congr (congrArg edgeValue (rows2_3 V c t p 0 e he)) (rows2_2 V c t p q e he))
    (whole2_5 V c t q)) (funext fun k => rows2_0 V c t p k e he)) (funext fun k => rows2_1 V c t p k e he))
    (funext fun k => whole2_4 V c t q k)
end Region2

/-- An index of the output array is in point `t`'s block iff each coordinate is in the block's range on its axis. -/
theorem mem_blk2 (t : Fin cfg2.N) (i : S1000000x64.Idx) :
    i ∈ ((cfg2.win 6).blk t).view.set ↔ ∀ a : Fin 2, win2_6.index t a * S4000x64.size a ≤ (i a).val
      ∧ (i a).val < win2_6.index t a * S4000x64.size a + S4000x64.size a := by
  show i ∈ ((View.whole main_v44).slice (win2_6.rect t)).set ↔ _
  rw [View.set_slice_whole, Rect.mem_set_unit]
  exact Iff.rfl

/-- Every entry of the output array lies in a written-back block: row `r` is in the block of point `r / 4000`. -/
theorem cover2 (i : S1000000x64.Idx) :
    ∃ t : Fin cfg2.N, (cfg2.win 6).flush t = true ∧ i ∈ ((cfg2.win 6).blk t).view.set := by
  have hi0 : (i 0).val < 1000000 := (i 0).isLt
  have hi1 : (i 1).val < 64 := (i 1).isLt
  obtain ⟨t, ht⟩ : ∃ t : Fin cfg2.N, t.val = (i 0).val / 4000 :=
    ⟨⟨(i 0).val / 4000, by rw [show cfg2.N = 250 from N_2]; omega⟩, rfl⟩
  obtain ⟨-, -, -, -, -, -, ⟨h0, h1⟩⟩ := idx_facts2 t
  refine ⟨t, flush2_6 t, ?_⟩
  rw [mem_blk2]
  intro a
  match a with
  | ⟨0, _⟩ =>
    show win2_6.index t (0 : Fin 2) * 4000 ≤ (i 0).val ∧ (i 0).val < win2_6.index t (0 : Fin 2) * 4000 + 4000
    rw [h0, ht]; omega
  | ⟨1, _⟩ =>
    show win2_6.index t (1 : Fin 2) * 64 ≤ (i 1).val ∧ (i 1).val < win2_6.index t (1 : Fin 2) * 64 + 64
    rw [h1]; omega

/-- The first region's output array after the region: the message array of its six input arrays. -/
theorem msg2 (V : (c : Dev nD) → (b : Ref sig .tc) → Buf (Elt Ideal) ((c : Thread nD τ).loc b)) (c : Dev nD) :
    (dat2 (F := Ideal) V c).arrAt 6 cfg2.N
      = Cert.Spec.msg (F := Ideal) (V c main_v8) (V c main_v15) (V c main_v22) (V c main_arg6) (V c main_arg4) (V c main_arg5) :=
  (dat2 (F := Ideal) V c).arrAt_eq_of_cover 6
    (Cert.Spec.msg (F := Ideal) (V c main_v8) (V c main_v15) (V c main_v22) (V c main_arg6) (V c main_arg4) (V c main_arg5))
    (fun t _ => flushed2_eq V c t) cover2

/-! ### The second region: the same steps on its own windows and arrays -/

/-- The index maps over the grid: the four row windows and the output move one block of 4000 rows per point, on
    lane block 0; the weights and the bias stay at block 0. -/
theorem idx_facts3 : ∀ t : Fin cfg3.N,
      (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ win3_5.index t (0 : Fin 1) = 0
    ∧ (win3_6.index t (0 : Fin 2) = t.val ∧ win3_6.index t (1 : Fin 2) = 0) :=
  (by decide +kernel : ∀ t : Fin grid3.N, _)

theorem lt_points3 (t : Fin cfg3.N) : t.val < 250 := lt_of_lt_of_eq t.isLt N_3

section Region3
variable (V : (c : Dev nD) → (b : Ref sig .tc) → Buf (Elt Ideal) ((c : Thread nD τ).loc b)) (c : Dev nD)

/-- Row `p` of point `t`'s block of the first feature array is row `4000·t + p` of the array. -/
theorem rows3_0 (t : Fin cfg3.N) (p : Fin 4000) (k : Fin 64) (e : Fin 1000000) (he : e.val = 4000 * t.val + p.val) :
    (iblk3 (F := Ideal) V c 0 t : FVec Ideal S4000x64 .f32) (ix2 p k) = (V c main_v29 : FVec Ideal S1000000x64 .f32) (ix2 e k) := by
  obtain ⟨⟨h0, h1⟩, -⟩ := idx_facts3 t
  show V c main_v29 (((cfg3.win 0).blk t).view.emb (ix2 p k)) = V c main_v29 (ix2 e k)
  refine congrArg (V c main_v29) (funext fun a => Fin.ext ?_)
  match a with
  | ⟨0, _⟩ => show win3_0.index t (0 : Fin 2) * 4000 + 1 * p.val = e.val; rw [h0, he]; omega
  | ⟨1, _⟩ => show win3_0.index t (1 : Fin 2) * 64 + 1 * k.val = k.val; rw [h1]; omega

/-- The same for the second feature array. -/
theorem rows3_1 (t : Fin cfg3.N) (p : Fin 4000) (k : Fin 64) (e : Fin 1000000) (he : e.val = 4000 * t.val + p.val) :
    (iblk3 (F := Ideal) V c 1 t : FVec Ideal S4000x64 .f32) (ix2 p k) = (V c main_v36 : FVec Ideal S1000000x64 .f32) (ix2 e k) := by
  obtain ⟨-, ⟨h0, h1⟩, -⟩ := idx_facts3 t
  show V c main_v36 (((cfg3.win 1).blk t).view.emb (ix2 p k)) = V c main_v36 (ix2 e k)
  refine congrArg (V c main_v36) (funext fun a => Fin.ext ?_)
  match a with
  | ⟨0, _⟩ => show win3_1.index t (0 : Fin 2) * 4000 + 1 * p.val = e.val; rw [h0, he]; omega
  | ⟨1, _⟩ => show win3_1.index t (1 : Fin 2) * 64 + 1 * k.val = k.val; rw [h1]; omega

/-- The same for the gathered dense layer. -/
theorem rows3_2 (t : Fin cfg3.N) (p : Fin 4000) (k : Fin 64) (e : Fin 1000000) (he : e.val = 4000 * t.val + p.val) :
    (iblk3 (F := Ideal) V c 2 t : FVec Ideal S4000x64 .f32) (ix2 p k) = (V c main_v43 : FVec Ideal S1000000x64 .f32) (ix2 e k) := by
  obtain ⟨-, -, ⟨h0, h1⟩, -⟩ := idx_facts3 t
  show V c main_v43 (((cfg3.win 2).blk t).view.emb (ix2 p k)) = V c main_v43 (ix2 e k)
  refine congrArg (V c main_v43) (funext fun a => Fin.ext ?_)
  match a with
  | ⟨0, _⟩ => show win3_2.index t (0 : Fin 2) * 4000 + 1 * p.val = e.val; rw [h0, he]; omega
  | ⟨1, _⟩ => show win3_2.index t (1 : Fin 2) * 64 + 1 * k.val = k.val; rw [h1]; omega

/-- Row `p` of point `t`'s block of the edge weights' column is row `4000·t + p` of the column. -/
theorem rows3_3 (t : Fin cfg3.N) (p : Fin 4000) (z : Fin 1) (e : Fin 1000000) (he : e.val = 4000 * t.val + p.val) :
    (iblk3 (F := Ideal) V c 3 t : FVec Ideal S4000x1 .f32) (ix2 p z) = (V c main_arg7 : FVec Ideal S1000000x1 .f32) (ix2 e z) := by
  obtain ⟨-, -, -, ⟨h0, h1⟩, -⟩ := idx_facts3 t
  show V c main_arg7 (((cfg3.win 3).blk t).view.emb (ix2 p z)) = V c main_arg7 (ix2 e z)
  refine congrArg (V c main_arg7) (funext fun a => Fin.ext ?_)
  match a with
  | ⟨0, _⟩ => show win3_3.index t (0 : Fin 2) * 4000 + 1 * p.val = e.val; rw [h0, he]; omega
  | ⟨1, _⟩ => show win3_3.index t (1 : Fin 2) * 1 + 1 * z.val = z.val; rw [h1]; omega

/-- The weights' block at every point is the whole weight matrix. -/
theorem whole3_4 (t : Fin cfg3.N) (q k : Fin 64) :
    (iblk3 (F := Ideal) V c 4 t : FVec Ideal S64x64 .f32) (ix2 q k) = (V c main_arg4 : FVec Ideal S64x64 .f32) (ix2 q k) := by
  obtain ⟨-, -, -, -, ⟨h0, h1⟩, -⟩ := idx_facts3 t
  show V c main_arg4 (((cfg3.win 4).blk t).view.emb (ix2 q k)) = V c main_arg4 (ix2 q k)
  refine congrArg (V c main_arg4) (funext fun a => Fin.ext ?_)
  match a with
  | ⟨0, _⟩ => show win3_4.index t (0 : Fin 2) * 64 + 1 * q.val = q.val; rw [h0]; omega
  | ⟨1, _⟩ => show win3_4.index t (1 : Fin 2) * 64 + 1 * k.val = k.val; rw [h1]; omega

/-- The bias's block at every point is the whole bias. -/
theorem whole3_5 (t : Fin cfg3.N) (q : Fin 64) :
    (iblk3 (F := Ideal) V c 5 t : FVec Ideal S64 .f32) (ix1 q) = (V c main_arg5 : FVec Ideal S64 .f32) (ix1 q) := by
  obtain ⟨-, -, -, -, -, h0, -⟩ := idx_facts3 t
  show V c main_arg5 (((cfg3.win 5).blk t).view.emb (ix1 q)) = V c main_arg5 (ix1 q)
  refine congrArg (V c main_arg5) (funext fun a => Fin.ext ?_)
  match a with
  | ⟨0, _⟩ => show win3_5.index t (0 : Fin 1) * 64 + 1 * q.val = q.val; rw [h0]; omega

/-- Row `p`, lane `q` of point `t`'s block of the output is row `4000·t + p`, lane `q` of the output array. -/
theorem out_emb3 (t : Fin cfg3.N) (p : Fin 4000) (q : Fin 64) (e : Fin 1000000) (he : e.val = 4000 * t.val + p.val) :
    ((cfg3.win 6).blk t).view.emb (ix2 p q) = (ix2 e q : S1000000x64.Idx) := by
  obtain ⟨-, -, -, -, -, -, ⟨h0, h1⟩⟩ := idx_facts3 t
  refine funext fun a => Fin.ext ?_
  match a with
  | ⟨0, _⟩ => show win3_6.index t (0 : Fin 2) * 4000 + 1 * p.val = e.val; rw [h0, he]; omega
  | ⟨1, _⟩ => show win3_6.index t (1 : Fin 2) * 64 + 1 * q.val = q.val; rw [h1]; omega

/-- What point `t` writes back is block `t` of the message array of the region's six input arrays. -/
theorem flushed3_eq (t : Fin cfg3.N) :
    (dat3 (F := Ideal) V c).flushed 6 t = ((cfg3.win 6).blk t).view.read (Elt Ideal)
      (Cert.Spec.msg (F := Ideal) (V c main_v29) (V c main_v36) (V c main_v43) (V c main_arg7) (V c main_arg4) (V c main_arg5)) := by
  show (cfg3.win 6).cut (grid3.coords t) ((dat3 V c).after 6 t) = _
  rw [after3_6]
  unfold out3_6
  rw [View.canon_unit_zero hz2]
  simp only [View.ld_unit_zero (S := S4000x64) hz2, View.ld_unit_zero (S := S64x64) hz2, View.ld_unit_zero (S := S4000x1) hz2,
    View.ld_unit_zero (S := S64) hz1]
  funext j
  obtain ⟨p, q, rfl⟩ : ∃ (p : Fin 4000) (q : Fin 64), j = ix2 p q := ⟨j 0, j 1, eq_ix2 j⟩
  have ht := lt_points3 t
  obtain ⟨e, he⟩ : ∃ e : Fin 1000000, e.val = 4000 * t.val + p.val :=
    ⟨⟨4000 * t.val + p.val, by have := p.isLt; omega⟩, rfl⟩
  show k3_pay1 (F := Ideal) (iblk3 V c 0 t) (iblk3 V c 1 t) (iblk3 V c 4 t) (iblk3 V c 3 t) (iblk3 V c 2 t) (iblk3 V c 5 t) (ix2 p q)
    = Cert.Spec.msg (F := Ideal) (V c main_v29) (V c main_v36) (V c main_v43) (V c main_arg7) (V c main_arg4) (V c main_arg5)
        (((cfg3.win 6).blk t).view.emb (ix2 p q))
  rw [out_emb3 t p q e he]
  refine (pay_apply3 (iblk3 V c 0 t) (iblk3 V c 1 t) (iblk3 V c 4 t) (iblk3 V c 3 t) (iblk3 V c 2 t) (iblk3 V c 5 t) p q).trans ?_
  refine Eq.trans ?_ (msg_apply (V c main_v29) (V c main_v36) (V c main_v43) (V c main_arg7) (V c main_arg4) (V c main_arg5) e q).symm
  exact congr (congr (congr (congr (congr (congrArg edgeValue (rows3_3 V c t p 0 e he)) (rows3_2 V c t p q e he))
    (whole3_5 V c t q)) (funext fun k => rows3_0 V c t p k e he)) (funext fun k => rows3_1 V c t p k e he))
    (funext fun k => whole3_4 V c t q k)
end Region3

/-- An index of the output array is in point `t`'s block iff each coordinate is in the block's range on its axis. -/
theorem mem_blk3 (t : Fin cfg3.N) (i : S1000000x64.Idx) :
    i ∈ ((cfg3.win 6).blk t).view.set ↔ ∀ a : Fin 2, win3_6.index t a * S4000x64.size a ≤ (i a).val
      ∧ (i a).val < win3_6.index t a * S4000x64.size a + S4000x64.size a := by
  show i ∈ ((View.whole main_v45).slice (win3_6.rect t)).set ↔ _
  rw [View.set_slice_whole, Rect.mem_set_unit]
  exact Iff.rfl

/-- Every entry of the output array lies in a written-back block: row `r` is in the block of point `r / 4000`. -/
theorem cover3 (i : S1000000x64.Idx) :
    ∃ t : Fin cfg3.N, (cfg3.win 6).flush t = true ∧ i ∈ ((cfg3.win 6).blk t).view.set := by
  have hi0 : (i 0).val < 1000000 := (i 0).isLt
  have hi1 : (i 1).val < 64 := (i 1).isLt
  obtain ⟨t, ht⟩ : ∃ t : Fin cfg3.N, t.val = (i 0).val / 4000 :=
    ⟨⟨(i 0).val / 4000, by rw [show cfg3.N = 250 from N_3]; omega⟩, rfl⟩
  obtain ⟨-, -, -, -, -, -, ⟨h0, h1⟩⟩ := idx_facts3 t
  refine ⟨t, flush3_6 t, ?_⟩
  rw [mem_blk3]
  intro a
  match a with
  | ⟨0, _⟩ =>
    show win3_6.index t (0 : Fin 2) * 4000 ≤ (i 0).val ∧ (i 0).val < win3_6.index t (0 : Fin 2) * 4000 + 4000
    rw [h0, ht]; omega
  | ⟨1, _⟩ =>
    show win3_6.index t (1 : Fin 2) * 64 ≤ (i 1).val ∧ (i 1).val < win3_6.index t (1 : Fin 2) * 64 + 64
    rw [h1]; omega

/-- The second region's output array after the region: the message array of its six input arrays. -/
theorem msg3 (V : (c : Dev nD) → (b : Ref sig .tc) → Buf (Elt Ideal) ((c : Thread nD τ).loc b)) (c : Dev nD) :
    (dat3 (F := Ideal) V c).arrAt 6 cfg3.N
      = Cert.Spec.msg (F := Ideal) (V c main_v29) (V c main_v36) (V c main_v43) (V c main_arg7) (V c main_arg4) (V c main_arg5) :=
  (dat3 (F := Ideal) V c).arrAt_eq_of_cover 6
    (Cert.Spec.msg (F := Ideal) (V c main_v29) (V c main_v36) (V c main_v43) (V c main_arg7) (V c main_arg4) (V c main_arg5))
    (fun t _ => flushed3_eq V c t) cover3

end Cert.KernelIdeal.RegionMsg

end
-- ==== Proof.RegionFin.lean ====
/-
  The two finishing regions, read as whole arrays.

  Each of the two regions walks its [150000, 64] input in 25 blocks of 6000 rows and leaves, in the same rows of its
  output, every row rectified (x where x > 0, else 0.2 · x) and divided by its Euclidean norm, the norm clamped below
  at the word 0x2B8CBCCC. A row's result depends on that row only, and a block holds whole rows, so the body's
  arithmetic at an entry of a block and the whole-array function at the entry's place in the array are the same
  expression of one row of the input: the rectified entry over the clamped square root of the sum of the row's
  64 rectified squares. The blocks tile the output, so the output array after the region is the whole-array function
  of the input array.
-/
import proofs.«133899_j52561809769216_1_alg».proof.Proof.Gen.KernelIdeal.Frame
import proofs.«133899_j52561809769216_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section
namespace Cert.KernelIdeal.RegionFin
open Cert.KernelIdeal Cert.KernelIdeal.Gen Idealize.ShloMosaic Idealize.ShloMosaic.TcCoe Idealize.SL.Sem
open Idealize.ShloMosaic.ValueIdx

/-! ## One row of the result, as a function of that row of the input -/

/-- The leaky rectifier on one value: x where x > 0, else 0.2 · x (the factor kept as its word). -/
def leakyAt (x : EReal) : EReal :=
  Scalar.select (FloatOps.cmpf (F := Ideal) (φ := .f32) .ogt x (FloatOps.ofBits (F := Ideal) .f32 0x00000000#32)) x
    (FloatOps.mulf (F := Ideal) (φ := .f32) (FloatOps.ofBits (F := Ideal) .f32 0x3E4CCCCD#32) x)

/-- One entry of a finished row: the rectified entry over the row's Euclidean norm, the norm clamped below. -/
def finAt (ρ : Fin 64 → EReal) (q : Fin 64) : EReal :=
  FloatOps.divf (F := Ideal) (φ := .f32) (leakyAt (ρ q))
    (FloatOps.maximumf (F := Ideal) (φ := .f32) (FloatOps.sqrt (F := Ideal) (φ := .f32) (∑ k : Fin 64, FloatOps.mulf (F := Ideal) (φ := .f32) (leakyAt (ρ k)) (leakyAt (ρ k))))
      (FloatOps.ofBits (F := Ideal) .f32 0x2B8CBCCC#32))

/-! ## The body's arithmetic at an entry of a block -/

section Layout
variable {α : Type}

/-- A vector of 6000 entries viewed as a column reads, at (r, u), its entry r: the cast keeps the row-major position. -/
theorem column_apply (x : S6000.Idx → α) (r : Fin 6000) (u : Fin 1) :
    shapeCast S6000x1 x shapeCasts_S6000_S6000x1 (ix2 r u) = x (ix1 r) :=
  shapeCast_apply x shapeCasts_S6000_S6000x1 _ _ (by
    have hu : u.val = 0 := by omega
    rw [Shape.rowMajor_val_two, Shape.rowMajor_val_one]
    show r.val = r.val * 1 + u.val
    omega)

/-- A column of 6000 entries spread over 64 lanes reads, at (r, q), the column's entry of row r. -/
theorem spread_apply (d : S6000x1.Idx → α) (r : Fin 6000) (q : Fin 64) :
    broadcastTo S6000x64 d broadcasts_S6000x1_S6000x64 (ix2 r q) = d (ix2 r (0 : Fin 1)) := by
  refine broadcastTo_apply d broadcasts_S6000x1_S6000x64 (ix2 r q) (ix2 r (0 : Fin 1)) fun ax => ?_
  match ax with
  | ⟨0, _⟩ => show r.val = if (6000 : Nat) = 1 then 0 else r.val; rw [if_neg (by decide)]
  | ⟨1, _⟩ => rfl

end Layout

/-- The lane sum of a block of 6000 rows, kept as a column: at row r, the sum over the row's 64 entries. -/
theorem laneSum_apply (v : FVec Ideal S6000x64 .f32) (hφ : FKind.Formats .f32)
    (hacc : (0x00000000#32 : BitVec 32) = 0x00000000#32) (r : Fin 6000) (u : Fin 1) :
    shapeCast S6000x1 (multiReduction (F := Ideal) .add [1] S6000 v 0x00000000#32 reduces_S6000x64_S6000 hφ hacc) shapeCasts_S6000_S6000x1 (ix2 r u)
      = ∑ k : Fin 64, v (ix2 r k) := by
  refine (column_apply _ r u).trans ?_
  refine (Ideal.multiReduction_add_single v 0x00000000#32 reduces_S6000x64_S6000 hφ hacc (ix1 r)).trans ?_
  refine Finset.sum_congr rfl fun k _ => congrArg v (funext fun a => Fin.ext ?_)
  match a with
  | ⟨0, _⟩ => rfl
  | ⟨1, _⟩ => rfl

/-- The body's arithmetic at entry (r, q) of a block: the finished entry of the block's row r. -/
theorem pay_apply (x : Vec Ideal S6000x64 .f32) (r : Fin 6000) (q : Fin 64) :
    k4_pay1 (F := Ideal) x (ix2 r q) = finAt (fun k => x (ix2 r k)) q := by
  unfold k4_pay1
  rw [shapeCast_self]
  refine congrArg (FloatOps.divf (F := Ideal) (φ := .f32) (leakyAt (x (ix2 r q)))) ?_
  refine (spread_apply _ r q).trans ?_
  refine congrArg (fun s => FloatOps.maximumf (F := Ideal) (φ := .f32) (FloatOps.sqrt (F := Ideal) (φ := .f32) s) (FloatOps.ofBits (F := Ideal) .f32 0x2B8CBCCC#32)) ?_
  exact laneSum_apply _ _ _ r 0

/-! ## The whole-array function at an entry -/

section Host
variable {α : Type}

/-- A scalar broadcast to any shape reads the scalar everywhere. -/
theorem splat_apply {t : Shape} (hb : Cert.ReferenceIdeal.S_.BroadcastsInDim t (![] : Fin 0 → Fin t.rank))
    (y : Cert.ReferenceIdeal.S_.Idx → α) (i : t.Idx) (j : Cert.ReferenceIdeal.S_.Idx) :
    broadcastInDim t ![] hb y i = y j :=
  broadcastInDim_apply _ hb y i j (fun a => a.elim0)

/-- A vector of 150000 entries broadcast to a column reads, at (p, u), its entry p. -/
theorem hostColumn_apply (hb : Cert.ReferenceIdeal.S150000.BroadcastsInDim Cert.ReferenceIdeal.S150000x1 (![0] : Fin 1 → Fin 2))
    (y : Cert.ReferenceIdeal.S150000.Idx → α) (p : Fin 150000) (u : Fin 1) :
    broadcastInDim Cert.ReferenceIdeal.S150000x1 ![0] hb y (ix2 p u) = y (ix1 p) :=
  broadcastInDim_apply _ hb y (ix2 p u) (ix1 p) (fun a => match a with
    | ⟨0, _⟩ => by show p.val = if (150000 : Nat) = 1 then 0 else p.val; rw [if_neg (by decide)])

/-- A column of 150000 entries broadcast over 64 lanes reads, at (p, q), the column's entry of row p. -/
theorem hostSpread_apply (hb : Cert.ReferenceIdeal.S150000x1.BroadcastsInDim Cert.ReferenceIdeal.S150000x64 (![0, 1] : Fin 2 → Fin 2))
    (d : Cert.ReferenceIdeal.S150000x1.Idx → α) (p : Fin 150000) (q : Fin 64) :
    broadcastInDim Cert.ReferenceIdeal.S150000x64 ![0, 1] hb d (ix2 p q) = d (ix2 p (0 : Fin 1)) :=
  broadcastInDim_apply _ hb d (ix2 p q) (ix2 p (0 : Fin 1)) (fun a => match a with
    | ⟨0, _⟩ => by show p.val = if (150000 : Nat) = 1 then 0 else p.val; rw [if_neg (by decide)]
    | ⟨1, _⟩ => by show (0 : Nat) = if (1 : Nat) = 1 then 0 else q.val; rw [if_pos rfl])

end Host

/-- The host's sum over the lanes: at row p, the initial value plus the sum over the row's 64 entries. -/
theorem hostSum_apply (v : FVec Ideal Cert.ReferenceIdeal.S150000x64 .f32) (init : Cert.ReferenceIdeal.S_.Idx → Ideal .f32)
    (hr : Cert.ReferenceIdeal.S150000x64.ReducesTo [1] Cert.ReferenceIdeal.S150000) (hu : 0 < Cert.ReferenceIdeal.S_.numel) (p : Fin 150000) :
    Host.reduceAdd (F := Ideal) v init hr hu (ix1 p) = init (Shape.Idx.first hu) + ∑ k : Fin 64, v (ix2 p k) := by
  simp only [Host.reduceAdd, Ideal.hostReduceAdd_def]
  rw [Ideal.hostReduceAdd_single hr (by decide)]
  refine congrArg (_ + ·) (Finset.sum_congr rfl fun k _ => ?_)
  exact congrArg v (funext fun a => Fin.ext (by match a with | ⟨0, _⟩ => rfl | ⟨1, _⟩ => rfl))

/-- The rectified array at an entry is the rectifier of the entry. -/
theorem leaky_apply (h : (⟨Cert.ReferenceIdeal.S150000x64, .f32⟩ : BufTy).Contents (Elt Ideal)) (i : Cert.ReferenceIdeal.S150000x64.Idx) :
    Cert.Spec.leaky (F := Ideal) h i = leakyAt (h i) := by
  unfold Cert.Spec.leaky
  show Scalar.select (FloatOps.cmpf (F := Ideal) (φ := .f32) .ogt (h i) (broadcastInDim _ _ _ _ i)) (h i) (FloatOps.mulf (F := Ideal) (φ := .f32) (broadcastInDim _ _ _ _ i) (h i)) = _
  rw [splat_apply _ _ i (fun a => a.elim0), splat_apply _ _ i (fun a => a.elim0)]
  rfl

/-- The finished array at entry (p, q) is the finished entry q of the input's row p. -/
theorem finish_apply (h : (⟨Cert.ReferenceIdeal.S150000x64, .f32⟩ : BufTy).Contents (Elt Ideal)) (p : Fin 150000) (q : Fin 64) :
    Cert.Spec.finish (F := Ideal) h (ix2 p q) = finAt (fun k => h (ix2 p k)) q := by
  unfold Cert.Spec.finish
  show FloatOps.hostDivf (F := Ideal) (φ := .f32) (Cert.Spec.leaky (F := Ideal) h (ix2 p q)) (broadcastInDim _ _ _ _ (ix2 p q)) = _
  rw [leaky_apply]
  refine congrArg (FloatOps.divf (F := Ideal) (φ := .f32) (leakyAt (h (ix2 p q)))) ?_
  refine (hostSpread_apply _ _ p q).trans ?_
  show FloatOps.maximumf (F := Ideal) (φ := .f32) (FloatOps.hostUnary (F := Ideal) (φ := .f32) .sqrt (broadcastInDim _ _ _ _ (ix2 p (0 : Fin 1)))) (broadcastInDim _ _ _ _ (ix2 p (0 : Fin 1))) = _
  rw [hostColumn_apply, splat_apply _ _ (ix2 p (0 : Fin 1)) (fun a => a.elim0), hostSum_apply]
  show FloatOps.maximumf (F := Ideal) (φ := .f32) (Ideal.sqrt (Ideal.ofBits .f32 0x00000000#32 + ∑ k : Fin 64, FloatOps.mulf (F := Ideal) (φ := .f32) (Cert.Spec.leaky (F := Ideal) h (ix2 p k)) (Cert.Spec.leaky (F := Ideal) h (ix2 p k)))) (FloatOps.ofBits (F := Ideal) .f32 0x2B8CBCCC#32) = _
  rw [Ideal.ofBits_zero_f32, zero_add]
  simp only [leaky_apply]
  rfl

/-! ## A block of the result is that block of the whole-array function -/

/-- The body's arithmetic on a block that holds rows 6000·T … 6000·T + 5999 of an array, at an entry of the block,
    is the finished array at the entry's place in the array: both are the finished entry of the same row. -/
theorem pay_block (X : Vec Ideal S6000x64 .f32) (H : (⟨Cert.ReferenceIdeal.S150000x64, .f32⟩ : BufTy).Contents (Elt Ideal))
    (e : S6000x64.Idx → Cert.ReferenceIdeal.S150000x64.Idx) (T : Nat)
    (he0 : ∀ y, (e y 0).val = T * 6000 + 1 * (y 0).val) (he1 : ∀ y, (e y 1).val = 0 * 64 + 1 * (y 1).val)
    (hX : ∀ y, X y = H (e y)) (j : S6000x64.Idx) :
    k4_pay1 (F := Ideal) X j = Cert.Spec.finish (F := Ideal) H (e j) := by
  obtain ⟨r, q, rfl⟩ : ∃ (r : Fin 6000) (q : Fin 64), j = ix2 r q := ⟨j 0, j 1, eq_ix2 j⟩
  have hp : T * 6000 + r.val < 150000 := by
    have h1 : (e (ix2 r q) 0).val < 150000 := (e (ix2 r q) 0).isLt
    have h2 : (e (ix2 r q) 0).val = T * 6000 + 1 * r.val := he0 (ix2 r q)
    omega
  have hrow : ∀ k : Fin 64, e (ix2 r k) = ix2 (⟨T * 6000 + r.val, hp⟩ : Fin 150000) k := fun k => funext fun a => Fin.ext (by
    match a with
    | ⟨0, _⟩ => exact (he0 (ix2 r k)).trans (by show T * 6000 + 1 * r.val = T * 6000 + r.val; omega)
    | ⟨1, _⟩ => exact (he1 (ix2 r k)).trans (by show 0 * 64 + 1 * k.val = k.val; omega))
  rw [pay_apply, hrow q, finish_apply]
  refine congrArg (fun ρ => finAt ρ q) (funext fun k => ?_)
  rw [hX, hrow k]

/-! ## From blocks to the array -/

/-- The body's one store is at offsets (0, 0). -/
theorem zeroOffsets : (![0, 0] : Fin 2 → Nat) = fun _ => 0 := funext fun a => by fin_cases a <;> rfl

/-- The two regions run the same arithmetic. -/
theorem pay5_eq : k5_pay1 (F := Ideal) = k4_pay1 (F := Ideal) := rfl

/-! ## Region 4: the blocks and the array -/

/-- The index maps of region 4, decided over the grid: point t's block of either window is block row t, lane block 0. -/
theorem blockIndex4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- The input block at point t, at an entry, is the input array at the entry's place in the array. -/
theorem iblk4_apply (V : (c : Dev nD) → (b : Ref sig .tc) → Buf (Elt Ideal) ((c : Thread nD τ).loc b)) (c : Dev nD)
    (t : Fin cfg4.N) (y : S6000x64.Idx) :
    (iblk4 (F := Ideal) V c 0 t : Vec Ideal S6000x64 .f32) y = V c main_v53 (((cfg4.win 0).blk t).view.emb y) := by
  unfold iblk4
  rfl

/-- What point t writes back is block t of the finished input array. -/
theorem flushed4_eq (V : (c : Dev nD) → (b : Ref sig .tc) → Buf (Elt Ideal) ((c : Thread nD τ).loc b)) (c : Dev nD)
    (t : Fin cfg4.N) :
    (dat4 (F := Ideal) V c).flushed 1 t
      = ((cfg4.win 1).blk t).view.read (Elt Ideal) (Cert.Spec.finish (F := Ideal) (V c main_v53)) := by
  show (cfg4.win 1).cut (grid4.coords t) ((dat4 (F := Ideal) V c).after 1 t) = _
  rw [after4_1]
  unfold out4_1
  rw [View.canon_unit_zero zeroOffsets]
  simp only [View.ld_unit_zero (S := S6000x64) zeroOffsets]
  obtain ⟨e0, e1, e2, e3⟩ := blockIndex4 t
  funext j
  show k4_pay1 (F := Ideal) (iblk4 (F := Ideal) V c 0 t) j
    = Cert.Spec.finish (F := Ideal) (V c main_v53) (((cfg4.win 1).blk t).view.emb j)
  refine pay_block (iblk4 (F := Ideal) V c 0 t) (V c main_v53) (fun y => ((cfg4.win 1).blk t).view.emb y) t.val
    (fun y => ?_) (fun y => ?_) (fun y => ?_) j
  · show win4_1.index t (0 : Fin 2) * 6000 + 1 * (y 0).val = _
    rw [e2]
  · show win4_1.index t (1 : Fin 2) * 64 + 1 * (y 1).val = _
    rw [e3]
  · rw [iblk4_apply]
    refine congrArg (V c main_v53) (funext fun a => Fin.ext ?_)
    match a with
    | ⟨0, _⟩ =>
      show win4_0.index t (0 : Fin 2) * 6000 + 1 * (y 0).val = win4_1.index t (0 : Fin 2) * 6000 + 1 * (y 0).val
      rw [e0, e2]
    | ⟨1, _⟩ =>
      show win4_0.index t (1 : Fin 2) * 64 + 1 * (y 1).val = win4_1.index t (1 : Fin 2) * 64 + 1 * (y 1).val
      rw [e1, e3]

/-- An index of the output array is in point t's block iff each coordinate is in the block's range on its axis. -/
theorem mem_blk4 (t : Fin cfg4.N) (i : S150000x64.Idx) :
    i ∈ ((cfg4.win 1).blk t).view.set
      ↔ ∀ a : Fin 2, win4_1.index t a * S6000x64.size a ≤ (i a).val
          ∧ (i a).val < win4_1.index t a * S6000x64.size a + S6000x64.size a := by
  show i ∈ ((View.whole main_v54).slice (win4_1.rect t)).set ↔ _
  rw [View.set_slice_whole, Rect.mem_set_unit]
  exact Iff.rfl

/-- Every index of the output array is in some point's block: row p is in block p / 6000. -/
theorem cover4 (i : S150000x64.Idx) :
    ∃ t : Fin cfg4.N, (cfg4.win 1).flush t = true ∧ i ∈ ((cfg4.win 1).blk t).view.set := by
  have hi0 : (i 0).val < 150000 := (i 0).isLt
  have hi1 : (i 1).val < 64 := (i 1).isLt
  have hN : cfg4.N = 25 := N_4
  have ht : (i 0).val / 6000 < cfg4.N := by rw [hN]; omega
  obtain ⟨-, -, e2, e3⟩ := blockIndex4 ⟨(i 0).val / 6000, ht⟩
  refine ⟨⟨(i 0).val / 6000, ht⟩, flush4_1 _, ?_⟩
  rw [mem_blk4]
  intro a
  match a with
  | ⟨0, _⟩ =>
    show win4_1.index ⟨(i 0).val / 6000, ht⟩ (0 : Fin 2) * 6000 ≤ (i 0).val
      ∧ (i 0).val < win4_1.index ⟨(i 0).val / 6000, ht⟩ (0 : Fin 2) * 6000 + 6000
    rw [e2]
    show (i 0).val / 6000 * 6000 ≤ (i 0).val ∧ (i 0).val < (i 0).val / 6000 * 6000 + 6000
    omega
  | ⟨1, _⟩ =>
    show win4_1.index ⟨(i 0).val / 6000, ht⟩ (1 : Fin 2) * 64 ≤ (i 1).val
      ∧ (i 1).val < win4_1.index ⟨(i 0).val / 6000, ht⟩ (1 : Fin 2) * 64 + 64
    rw [e3]
    omega

/-- The output array after region 4 is the finished input array. -/
theorem fin4 (V : (c : Dev nD) → (b : Ref sig .tc) → Buf (Elt Ideal) ((c : Thread nD τ).loc b)) (c : Dev nD) :
    (dat4 (F := Ideal) V c).arrAt 1 cfg4.N = Cert.Spec.finish (F := Ideal) (V c main_v53) :=
  (dat4 (F := Ideal) V c).arrAt_eq_of_cover 1 (Cert.Spec.finish (F := Ideal) (V c main_v53))
    (fun t _ => flushed4_eq V c t) cover4

/-! ## Region 5: the blocks and the array -/

/-- The index maps of region 5, decided over the grid: point t's block of either window is block row t, lane block 0. -/
theorem blockIndex5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- The input block at point t, at an entry, is the input array at the entry's place in the array. -/
theorem iblk5_apply (V : (c : Dev nD) → (b : Ref sig .tc) → Buf (Elt Ideal) ((c : Thread nD τ).loc b)) (c : Dev nD)
    (t : Fin cfg5.N) (y : S6000x64.Idx) :
    (iblk5 (F := Ideal) V c 0 t : Vec Ideal S6000x64 .f32) y = V c main_v49 (((cfg5.win 0).blk t).view.emb y) := by
  unfold iblk5
  rfl

/-- What point t writes back is block t of the finished input array. -/
theorem flushed5_eq (V : (c : Dev nD) → (b : Ref sig .tc) → Buf (Elt Ideal) ((c : Thread nD τ).loc b)) (c : Dev nD)
    (t : Fin cfg5.N) :
    (dat5 (F := Ideal) V c).flushed 1 t
      = ((cfg5.win 1).blk t).view.read (Elt Ideal) (Cert.Spec.finish (F := Ideal) (V c main_v49)) := by
  show (cfg5.win 1).cut (grid5.coords t) ((dat5 (F := Ideal) V c).after 1 t) = _
  rw [after5_1]
  unfold out5_1
  rw [View.canon_unit_zero zeroOffsets]
  simp only [View.ld_unit_zero (S := S6000x64) zeroOffsets]
  obtain ⟨e0, e1, e2, e3⟩ := blockIndex5 t
  rw [pay5_eq]
  funext j
  show k4_pay1 (F := Ideal) (iblk5 (F := Ideal) V c 0 t) j
    = Cert.Spec.finish (F := Ideal) (V c main_v49) (((cfg5.win 1).blk t).view.emb j)
  refine pay_block (iblk5 (F := Ideal) V c 0 t) (V c main_v49) (fun y => ((cfg5.win 1).blk t).view.emb y) t.val
    (fun y => ?_) (fun y => ?_) (fun y => ?_) j
  · show win5_1.index t (0 : Fin 2) * 6000 + 1 * (y 0).val = _
    rw [e2]
  · show win5_1.index t (1 : Fin 2) * 64 + 1 * (y 1).val = _
    rw [e3]
  · rw [iblk5_apply]
    refine congrArg (V c main_v49) (funext fun a => Fin.ext ?_)
    match a with
    | ⟨0, _⟩ =>
      show win5_0.index t (0 : Fin 2) * 6000 + 1 * (y 0).val = win5_1.index t (0 : Fin 2) * 6000 + 1 * (y 0).val
      rw [e0, e2]
    | ⟨1, _⟩ =>
      show win5_0.index t (1 : Fin 2) * 64 + 1 * (y 1).val = win5_1.index t (1 : Fin 2) * 64 + 1 * (y 1).val
      rw [e1, e3]

/-- An index of the output array is in point t's block iff each coordinate is in the block's range on its axis. -/
theorem mem_blk5 (t : Fin cfg5.N) (i : S150000x64.Idx) :
    i ∈ ((cfg5.win 1).blk t).view.set
      ↔ ∀ a : Fin 2, win5_1.index t a * S6000x64.size a ≤ (i a).val
          ∧ (i a).val < win5_1.index t a * S6000x64.size a + S6000x64.size a := by
  show i ∈ ((View.whole main_v55).slice (win5_1.rect t)).set ↔ _
  rw [View.set_slice_whole, Rect.mem_set_unit]
  exact Iff.rfl

/-- Every index of the output array is in some point's block: row p is in block p / 6000. -/
theorem cover5 (i : S150000x64.Idx) :
    ∃ t : Fin cfg5.N, (cfg5.win 1).flush t = true ∧ i ∈ ((cfg5.win 1).blk t).view.set := by
  have hi0 : (i 0).val < 150000 := (i 0).isLt
  have hi1 : (i 1).val < 64 := (i 1).isLt
  have hN : cfg5.N = 25 := N_5
  have ht : (i 0).val / 6000 < cfg5.N := by rw [hN]; omega
  obtain ⟨-, -, e2, e3⟩ := blockIndex5 ⟨(i 0).val / 6000, ht⟩
  refine ⟨⟨(i 0).val / 6000, ht⟩, flush5_1 _, ?_⟩
  rw [mem_blk5]
  intro a
  match a with
  | ⟨0, _⟩ =>
    show win5_1.index ⟨(i 0).val / 6000, ht⟩ (0 : Fin 2) * 6000 ≤ (i 0).val
      ∧ (i 0).val < win5_1.index ⟨(i 0).val / 6000, ht⟩ (0 : Fin 2) * 6000 + 6000
    rw [e2]
    show (i 0).val / 6000 * 6000 ≤ (i 0).val ∧ (i 0).val < (i 0).val / 6000 * 6000 + 6000
    omega
  | ⟨1, _⟩ =>
    show win5_1.index ⟨(i 0).val / 6000, ht⟩ (1 : Fin 2) * 64 ≤ (i 1).val
      ∧ (i 1).val < win5_1.index ⟨(i 0).val / 6000, ht⟩ (1 : Fin 2) * 64 + 64
    rw [e3]
    omega

/-- The output array after region 5 is the finished input array. -/
theorem fin5 (V : (c : Dev nD) → (b : Ref sig .tc) → Buf (Elt Ideal) ((c : Thread nD τ).loc b)) (c : Dev nD) :
    (dat5 (F := Ideal) V c).arrAt 1 cfg5.N = Cert.Spec.finish (F := Ideal) (V c main_v49) :=
  (dat5 (F := Ideal) V c).arrAt_eq_of_cover 1 (Cert.Spec.finish (F := Ideal) (V c main_v49))
    (fun t _ => flushed5_eq V c t) cover5

end Cert.KernelIdeal.RegionFin

end
-- ==== Proof.KValue.lean ====
/-
  The idealized kernel's result as one function of its twelve argument arrays.

  Boundary by boundary through the program (KChain.lean for the host stretches and for what a launch keeps; the three
  launch-value modules for what a launch writes): the dense layers of both node sets after the first two launches, the
  six row lookups, the two message arrays, the two sums by target row, the two finished arrays, and their stack —
  each buffer that a later step reads, as a function (Spec.lean) of the argument arrays as launched.
-/
import proofs.«133899_j52561809769216_1_alg».proof.Proof.KChain
import proofs.«133899_j52561809769216_1_alg».proof.Proof.RegionLin
import proofs.«133899_j52561809769216_1_alg».proof.Proof.RegionMsg
import proofs.«133899_j52561809769216_1_alg».proof.Proof.RegionFin
import Idealize.ShloMosaic.PureOps.Ideal

set_option maxRecDepth 16384

noncomputable section

namespace Cert.KernelIdeal.Whole

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the users' dense layer -/

/-- A buffer the first launch does not write still holds its launch contents. -/
theorem at1 (b : Ref sig .tc) (h0 : b ≠ main_v0) : W1 m ρ c (Proc.devRef .tc b) = m ((c : Thread nD τ).loc b) :=
  keep0 m ρ c b h0

theorem at1_v0 : W1 m ρ c (Proc.devRef .tc main_v0) = Cert.Spec.lin (m ((c : Thread nD τ).loc main_arg0)) (m ((c : Thread nD τ).loc main_arg2)) (m ((c : Thread nD τ).loc main_arg3)) :=
  (W1_arr m ρ c 3).trans (RegionLin.lin0 (V0 m ρ) c)

/-! ## After the items' dense layer -/

theorem at2 (b : Ref sig .tc) (h0 : b ≠ main_v0) (h1 : b ≠ main_v1) : W2 m ρ c (Proc.devRef .tc b) = m ((c : Thread nD τ).loc b) :=
  (keep1 m ρ c b h1).trans (at1 m ρ c b h0)

theorem at2_v0 : W2 m ρ c (Proc.devRef .tc main_v0) = Cert.Spec.lin (m ((c : Thread nD τ).loc main_arg0)) (m ((c : Thread nD τ).loc main_arg2)) (m ((c : Thread nD τ).loc main_arg3)) :=
  (keep1 m ρ c main_v0 (by decide)).trans (at1_v0 m ρ c)

theorem at2_v1 : W2 m ρ c (Proc.devRef .tc main_v1) = Cert.Spec.lin (m ((c : Thread nD τ).loc main_arg1)) (m ((c : Thread nD τ).loc main_arg2)) (m ((c : Thread nD τ).loc main_arg3)) := by
  refine (W2_arr m ρ c 3).trans ((RegionLin.lin1 (V1 m ρ) c).trans ?_)
  show Cert.Spec.lin (W1 m ρ c (Proc.devRef .tc main_arg1)) (W1 m ρ c (Proc.devRef .tc main_arg2)) (W1 m ρ c (Proc.devRef .tc main_arg3)) = _
  rw [at1 m ρ c main_arg1 (by decide), at1 m ρ c main_arg2 (by decide), at1 m ρ c main_arg3 (by decide)]

/-! ## After the row lookups -/

theorem at3_main_v8 : W3 m ρ c (Proc.devRef .tc main_v8) = Cert.Spec.rows (m ((c : Thread nD τ).loc main_arg0)) (m ((c : Thread nD τ).loc main_arg8)) :=
  (lookup_main_v8 m ρ c).trans (by rw [at2 m ρ c main_arg0 (by decide) (by decide), at2 m ρ c main_arg8 (by decide) (by decide)])
theorem at3_main_v15 : W3 m ρ c (Proc.devRef .tc main_v15) = Cert.Spec.rows (m ((c : Thread nD τ).loc main_arg1)) (m ((c : Thread nD τ).loc main_arg9)) :=
  (lookup_main_v15 m ρ c).trans (by rw [at2 m ρ c main_arg1 (by decide) (by decide), at2 m ρ c main_arg9 (by decide) (by decide)])
theorem at3_main_v22 : W3 m ρ c (Proc.devRef .tc main_v22) = Cert.Spec.rows (Cert.Spec.lin (m ((c : Thread nD τ).loc main_arg0)) (m ((c : Thread nD τ).loc main_arg2)) (m ((c : Thread nD τ).loc main_arg3))) (m ((c : Thread nD τ).loc main_arg8)) :=
  (lookup_main_v22 m ρ c).trans (by rw [at2_v0 m ρ c, at2 m ρ c main_arg8 (by decide) (by decide)])
theorem at3_main_v29 : W3 m ρ c (Proc.devRef .tc main_v29) = Cert.Spec.rows (m ((c : Thread nD τ).loc main_arg1)) (m ((c : Thread nD τ).loc main_arg10)) :=
  (lookup_main_v29 m ρ c).trans (by rw [at2 m ρ c main_arg1 (by decide) (by decide), at2 m ρ c main_arg10 (by decide) (by decide)])
theorem at3_main_v36 : W3 m ρ c (Proc.devRef .tc main_v36) = Cert.Spec.rows (m ((c : Thread nD τ).loc main_arg0)) (m ((c : Thread nD τ).loc main_arg11)) :=
  (lookup_main_v36 m ρ c).trans (by rw [at2 m ρ c main_arg0 (by decide) (by decide), at2 m ρ c main_arg11 (by decide) (by decide)])
theorem at3_main_v43 : W3 m ρ c (Proc.devRef .tc main_v43) = Cert.Spec.rows (Cert.Spec.lin (m ((c : Thread nD τ).loc main_arg1)) (m ((c : Thread nD τ).loc main_arg2)) (m ((c : Thread nD τ).loc main_arg3))) (m ((c : Thread nD τ).loc main_arg10)) :=
  (lookup_main_v43 m ρ c).trans (by rw [at2_v1 m ρ c, at2 m ρ c main_arg10 (by decide) (by decide)])

theorem at3_main_arg4 : W3 m ρ c (Proc.devRef .tc main_arg4) = m ((c : Thread nD τ).loc main_arg4) :=
  (lookups_keep_main_arg4 m ρ c).trans (at2 m ρ c main_arg4 (by decide) (by decide))
theorem at3_main_arg5 : W3 m ρ c (Proc.devRef .tc main_arg5) = m ((c : Thread nD τ).loc main_arg5) :=
  (lookups_keep_main_arg5 m ρ c).trans (at2 m ρ c main_arg5 (by decide) (by decide))
theorem at3_main_arg6 : W3 m ρ c (Proc.devRef .tc main_arg6) = m ((c : Thread nD τ).loc main_arg6) :=
  (lookups_keep_main_arg6 m ρ c).trans (at2 m ρ c main_arg6 (by decide) (by decide))
theorem at3_main_arg7 : W3 m ρ c (Proc.devRef .tc main_arg7) = m ((c : Thread nD τ).loc main_arg7) :=
  (lookups_keep_main_arg7 m ρ c).trans (at2 m ρ c main_arg7 (by decide) (by decide))
theorem at3_main_arg9 : W3 m ρ c (Proc.devRef .tc main_arg9) = m ((c : Thread nD τ).loc main_arg9) :=
  (lookups_keep_main_arg9 m ρ c).trans (at2 m ρ c main_arg9 (by decide) (by decide))
theorem at3_main_arg11 : W3 m ρ c (Proc.devRef .tc main_arg11) = m ((c : Thread nD τ).loc main_arg11) :=
  (lookups_keep_main_arg11 m ρ c).trans (at2 m ρ c main_arg11 (by decide) (by decide))
theorem at3_main_v0 : W3 m ρ c (Proc.devRef .tc main_v0) = Cert.Spec.lin (m ((c : Thread nD τ).loc main_arg0)) (m ((c : Thread nD τ).loc main_arg2)) (m ((c : Thread nD τ).loc main_arg3)) := (lookups_keep_main_v0 m ρ c).trans (at2_v0 m ρ c)
theorem at3_main_v1 : W3 m ρ c (Proc.devRef .tc main_v1) = Cert.Spec.lin (m ((c : Thread nD τ).loc main_arg1)) (m ((c : Thread nD τ).loc main_arg2)) (m ((c : Thread nD τ).loc main_arg3)) := (lookups_keep_main_v1 m ρ c).trans (at2_v1 m ρ c)

/-! ## After the user→item messages -/

theorem at4_main_v44 : W4 m ρ c (Proc.devRef .tc main_v44) = Cert.Spec.msg (Cert.Spec.rows (m ((c : Thread nD τ).loc main_arg0)) (m ((c : Thread nD τ).loc main_arg8))) (Cert.Spec.rows (m ((c : Thread nD τ).loc main_arg1)) (m ((c : Thread nD τ).loc main_arg9))) (Cert.Spec.rows (Cert.Spec.lin (m ((c : Thread nD τ).loc main_arg0)) (m ((c : Thread nD τ).loc main_arg2)) (m ((c : Thread nD τ).loc main_arg3))) (m ((c : Thread nD τ).loc main_arg8))) (m ((c : Thread nD τ).loc main_arg6)) (m ((c : Thread nD τ).loc main_arg4)) (m ((c : Thread nD τ).loc main_arg5)) := by
  refine (W4_arr m ρ c 6).trans ((RegionMsg.msg2 (V3 m ρ) c).trans ?_)
  show Cert.Spec.msg (W3 m ρ c (Proc.devRef .tc main_v8)) (W3 m ρ c (Proc.devRef .tc main_v15)) (W3 m ρ c (Proc.devRef .tc main_v22)) (W3 m ρ c (Proc.devRef .tc main_arg6)) (W3 m ρ c (Proc.devRef .tc main_arg4)) (W3 m ρ c (Proc.devRef .tc main_arg5)) = _
  rw [at3_main_v8 m ρ c, at3_main_v15 m ρ c, at3_main_v22 m ρ c, at3_main_arg6 m ρ c, at3_main_arg4 m ρ c, at3_main_arg5 m ρ c]

/-- What the user→item message launch keeps, read back to the boundary before it. -/
theorem at4 (b : Ref sig .tc) (hb : b ≠ main_v44) : W4 m ρ c (Proc.devRef .tc b) = W3 m ρ c (Proc.devRef .tc b) := keep2 m ρ c b hb

/-! ## After the item→user messages -/

theorem at5_main_v45 : W5 m ρ c (Proc.devRef .tc main_v45) = Cert.Spec.msg (Cert.Spec.rows (m ((c : Thread nD τ).loc main_arg1)) (m ((c : Thread nD τ).loc main_arg10))) (Cert.Spec.rows (m ((c : Thread nD τ).loc main_arg0)) (m ((c : Thread nD τ).loc main_arg11))) (Cert.Spec.rows (Cert.Spec.lin (m ((c : Thread nD τ).loc main_arg1)) (m ((c : Thread nD τ).loc main_arg2)) (m ((c : Thread nD τ).loc main_arg3))) (m ((c : Thread nD τ).loc main_arg10))) (m ((c : Thread nD τ).loc main_arg7)) (m ((c : Thread nD τ).loc main_arg4)) (m ((c : Thread nD τ).loc main_arg5)) := by
  refine (W5_arr m ρ c 6).trans ((RegionMsg.msg3 (V4 m ρ) c).trans ?_)
  show Cert.Spec.msg (W4 m ρ c (Proc.devRef .tc main_v29)) (W4 m ρ c (Proc.devRef .tc main_v36)) (W4 m ρ c (Proc.devRef .tc main_v43)) (W4 m ρ c (Proc.devRef .tc main_arg7)) (W4 m ρ c (Proc.devRef .tc main_arg4)) (W4 m ρ c (Proc.devRef .tc main_arg5)) = _
  rw [at4 m ρ c main_v29 (by decide), at4 m ρ c main_v36 (by decide), at4 m ρ c main_v43 (by decide), at4 m ρ c main_arg7 (by decide), at4 m ρ c main_arg4 (by decide), at4 m ρ c main_arg5 (by decide),
    at3_main_v29 m ρ c, at3_main_v36 m ρ c, at3_main_v43 m ρ c, at3_main_arg7 m ρ c, at3_main_arg4 m ρ c, at3_main_arg5 m ρ c]

/-- What the item→user message launch keeps, read back two boundaries. -/
theorem at5 (b : Ref sig .tc) (h44 : b ≠ main_v44) (h45 : b ≠ main_v45) : W5 m ρ c (Proc.devRef .tc b) = W3 m ρ c (Proc.devRef .tc b) :=
  (keep3 m ρ c b h45).trans (keep2 m ρ c b h44)

theorem at5_main_v44 : W5 m ρ c (Proc.devRef .tc main_v44) = Cert.Spec.msg (Cert.Spec.rows (m ((c : Thread nD τ).loc main_arg0)) (m ((c : Thread nD τ).loc main_arg8))) (Cert.Spec.rows (m ((c : Thread nD τ).loc main_arg1)) (m ((c : Thread nD τ).loc main_arg9))) (Cert.Spec.rows (Cert.Spec.lin (m ((c : Thread nD τ).loc main_arg0)) (m ((c : Thread nD τ).loc main_arg2)) (m ((c : Thread nD τ).loc main_arg3))) (m ((c : Thread nD τ).loc main_arg8))) (m ((c : Thread nD τ).loc main_arg6)) (m ((c : Thread nD τ).loc main_arg4)) (m ((c : Thread nD τ).loc main_arg5)) :=
  (keep3 m ρ c main_v44 (by decide)).trans (at4_main_v44 m ρ c)

/-! ## After the sums by target row -/

theorem at6_main_v49 : W6 m ρ c (Proc.devRef .tc main_v49) = Cert.Spec.agg (Cert.Spec.lin (m ((c : Thread nD τ).loc main_arg1)) (m ((c : Thread nD τ).loc main_arg2)) (m ((c : Thread nD τ).loc main_arg3))) (m ((c : Thread nD τ).loc main_arg9)) (Cert.Spec.msg (Cert.Spec.rows (m ((c : Thread nD τ).loc main_arg0)) (m ((c : Thread nD τ).loc main_arg8))) (Cert.Spec.rows (m ((c : Thread nD τ).loc main_arg1)) (m ((c : Thread nD τ).loc main_arg9))) (Cert.Spec.rows (Cert.Spec.lin (m ((c : Thread nD τ).loc main_arg0)) (m ((c : Thread nD τ).loc main_arg2)) (m ((c : Thread nD τ).loc main_arg3))) (m ((c : Thread nD τ).loc main_arg8))) (m ((c : Thread nD τ).loc main_arg6)) (m ((c : Thread nD τ).loc main_arg4)) (m ((c : Thread nD τ).loc main_arg5))) :=
  (sum_main_v49 m ρ c).trans (by rw [at5 m ρ c main_v1 (by decide) (by decide), at5 m ρ c main_arg9 (by decide) (by decide), at5_main_v44 m ρ c, at3_main_v1 m ρ c, at3_main_arg9 m ρ c])

theorem at6_main_v53 : W6 m ρ c (Proc.devRef .tc main_v53) = Cert.Spec.agg (Cert.Spec.lin (m ((c : Thread nD τ).loc main_arg0)) (m ((c : Thread nD τ).loc main_arg2)) (m ((c : Thread nD τ).loc main_arg3))) (m ((c : Thread nD τ).loc main_arg11)) (Cert.Spec.msg (Cert.Spec.rows (m ((c : Thread nD τ).loc main_arg1)) (m ((c : Thread nD τ).loc main_arg10))) (Cert.Spec.rows (m ((c : Thread nD τ).loc main_arg0)) (m ((c : Thread nD τ).loc main_arg11))) (Cert.Spec.rows (Cert.Spec.lin (m ((c : Thread nD τ).loc main_arg1)) (m ((c : Thread nD τ).loc main_arg2)) (m ((c : Thread nD τ).loc main_arg3))) (m ((c : Thread nD τ).loc main_arg10))) (m ((c : Thread nD τ).loc main_arg7)) (m ((c : Thread nD τ).loc main_arg4)) (m ((c : Thread nD τ).loc main_arg5))) :=
  (sum_main_v53 m ρ c).trans (by rw [at5 m ρ c main_v0 (by decide) (by decide), at5 m ρ c main_arg11 (by decide) (by decide), at5_main_v45 m ρ c, at3_main_v0 m ρ c, at3_main_arg11 m ρ c])

/-! ## After the two finishing launches -/

theorem at7_main_v54 : W7 m ρ c (Proc.devRef .tc main_v54) = Cert.Spec.finish (Cert.Spec.agg (Cert.Spec.lin (m ((c : Thread nD τ).loc main_arg0)) (m ((c : Thread nD τ).loc main_arg2)) (m ((c : Thread nD τ).loc main_arg3))) (m ((c : Thread nD τ).loc main_arg11)) (Cert.Spec.msg (Cert.Spec.rows (m ((c : Thread nD τ).loc main_arg1)) (m ((c : Thread nD τ).loc main_arg10))) (Cert.Spec.rows (m ((c : Thread nD τ).loc main_arg0)) (m ((c : Thread nD τ).loc main_arg11))) (Cert.Spec.rows (Cert.Spec.lin (m ((c : Thread nD τ).loc main_arg1)) (m ((c : Thread nD τ).loc main_arg2)) (m ((c : Thread nD τ).loc main_arg3))) (m ((c : Thread nD τ).loc main_arg10))) (m ((c : Thread nD τ).loc main_arg7)) (m ((c : Thread nD τ).loc main_arg4)) (m ((c : Thread nD τ).loc main_arg5)))) := by
  refine (W7_arr m ρ c 1).trans ((RegionFin.fin4 (V6 m ρ) c).trans ?_)
  show Cert.Spec.finish (W6 m ρ c (Proc.devRef .tc main_v53)) = _
  rw [at6_main_v53 m ρ c]

theorem at7_main_v49 : W7 m ρ c (Proc.devRef .tc main_v49) = Cert.Spec.agg (Cert.Spec.lin (m ((c : Thread nD τ).loc main_arg1)) (m ((c : Thread nD τ).loc main_arg2)) (m ((c : Thread nD τ).loc main_arg3))) (m ((c : Thread nD τ).loc main_arg9)) (Cert.Spec.msg (Cert.Spec.rows (m ((c : Thread nD τ).loc main_arg0)) (m ((c : Thread nD τ).loc main_arg8))) (Cert.Spec.rows (m ((c : Thread nD τ).loc main_arg1)) (m ((c : Thread nD τ).loc main_arg9))) (Cert.Spec.rows (Cert.Spec.lin (m ((c : Thread nD τ).loc main_arg0)) (m ((c : Thread nD τ).loc main_arg2)) (m ((c : Thread nD τ).loc main_arg3))) (m ((c : Thread nD τ).loc main_arg8))) (m ((c : Thread nD τ).loc main_arg6)) (m ((c : Thread nD τ).loc main_arg4)) (m ((c : Thread nD τ).loc main_arg5))) :=
  (keep4 m ρ c main_v49 (by decide)).trans (at6_main_v49 m ρ c)

theorem at8_main_v55 : W8 m ρ c (Proc.devRef .tc main_v55) = Cert.Spec.finish (Cert.Spec.agg (Cert.Spec.lin (m ((c : Thread nD τ).loc main_arg1)) (m ((c : Thread nD τ).loc main_arg2)) (m ((c : Thread nD τ).loc main_arg3))) (m ((c : Thread nD τ).loc main_arg9)) (Cert.Spec.msg (Cert.Spec.rows (m ((c : Thread nD τ).loc main_arg0)) (m ((c : Thread nD τ).loc main_arg8))) (Cert.Spec.rows (m ((c : Thread nD τ).loc main_arg1)) (m ((c : Thread nD τ).loc main_arg9))) (Cert.Spec.rows (Cert.Spec.lin (m ((c : Thread nD τ).loc main_arg0)) (m ((c : Thread nD τ).loc main_arg2)) (m ((c : Thread nD τ).loc main_arg3))) (m ((c : Thread nD τ).loc main_arg8))) (m ((c : Thread nD τ).loc main_arg6)) (m ((c : Thread nD τ).loc main_arg4)) (m ((c : Thread nD τ).loc main_arg5)))) := by
  refine (W8_arr m ρ c 1).trans ((RegionFin.fin5 (V7 m ρ) c).trans ?_)
  show Cert.Spec.finish (W7 m ρ c (Proc.devRef .tc main_v49)) = _
  rw [at7_main_v49 m ρ c]

theorem at8_main_v54 : W8 m ρ c (Proc.devRef .tc main_v54) = Cert.Spec.finish (Cert.Spec.agg (Cert.Spec.lin (m ((c : Thread nD τ).loc main_arg0)) (m ((c : Thread nD τ).loc main_arg2)) (m ((c : Thread nD τ).loc main_arg3))) (m ((c : Thread nD τ).loc main_arg11)) (Cert.Spec.msg (Cert.Spec.rows (m ((c : Thread nD τ).loc main_arg1)) (m ((c : Thread nD τ).loc main_arg10))) (Cert.Spec.rows (m ((c : Thread nD τ).loc main_arg0)) (m ((c : Thread nD τ).loc main_arg11))) (Cert.Spec.rows (Cert.Spec.lin (m ((c : Thread nD τ).loc main_arg1)) (m ((c : Thread nD τ).loc main_arg2)) (m ((c : Thread nD τ).loc main_arg3))) (m ((c : Thread nD τ).loc main_arg10))) (m ((c : Thread nD τ).loc main_arg7)) (m ((c : Thread nD τ).loc main_arg4)) (m ((c : Thread nD τ).loc main_arg5)))) :=
  (keep5 m ρ c main_v54 (by decide)).trans (at7_main_v54 m ρ c)

/-! ## The result -/

/-- The result buffer at the last boundary is the specification's function of the twelve argument arrays. -/
theorem result_eq : W9 m ρ c (Proc.devRef .tc main_v58)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (stacked m ρ c).trans (by rw [at8_main_v54 m ρ c, at8_main_v55 m ρ c]; rfl)

end Cert.KernelIdeal.Whole

end
-- ==== Proof.RValue.lean ====
/-
  The idealized reference's result is the specification's function of its argument arrays.

  The reference applies, in this order: the two dense layers; for each edge direction the row lookups, the product of
  the end nodes' features, the message, the sum by target row on top of the targets' dense layer; the leaky rectifier,
  the row norms, the clamp and the division; and the stack.  Its run's composed result term is, operation for
  operation, the term that Spec.lean's functions unfold to.
-/
import proofs.«133899_j52561809769216_1_alg».proof.Proof.Gen.ReferenceIdeal.Run
import proofs.«133899_j52561809769216_1_alg».proof.Proof.Spec

set_option maxRecDepth 16384

noncomputable section

namespace Cert.ReferenceIdeal.Whole

open Cert.ReferenceIdeal Idealize.ShloMosaic Idealize.ShloMosaic.TcCoe Idealize.SL.Sem

variable {F : FTy → Type} [FloatOps F]

/-- The reference run's result term is `Cert.Spec.result` of the twelve argument arrays. -/
theorem result_eq (m : (ℓ : Loc nD τ sig) → Buf (Elt F) ℓ) (c : Dev nD) :
    Cert.ReferenceIdeal.Value.res_main_v100 m c
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v100
  rfl

end Cert.ReferenceIdeal.Whole

end
-- ==== Proof.lean ====
/-
  The certificate of one layer of a bipartite graph network (users and items, 150000 nodes of 64 features each, a
  million edges in each direction), computed by six tiled kernel launches among host row lookups and scatter-adds,
  against the plain array program.

  Both programs compute the same function of the twelve argument arrays (Proof/Spec.lean): per node the dense layer
  x · W1ᵀ + b1; per edge the message norm · (dense(src) + (feat(src) ⊙ feat(dst)) · W2ᵀ + b2); per node the dense layer
  plus the sum of the incoming messages; then the leaky rectifier and the division of each row by its Euclidean norm
  clamped below at 1e-12; the two node sets stacked.  The kernel program tiles the three row-wise stages into blocks of
  6000 nodes or 4000 edges; a block of rows of each stage depends on the same rows of its inputs only, and on the
  extended reals the matrix unit's product into a zero accumulator and the host's contraction are the same sum over
  the 64 features, the changes of float format the identity, so launch by launch the output array is the reference's
  whole-array stage (Proof/RegionLin.lean, RegionMsg.lean, RegionFin.lean).  The row lookups and the scatter-adds are
  the same host operations in both programs and stay opaque.  No algebraic law and no finiteness is used: the
  precondition is never opened.

  The kernel programs' frames are the generated ones; the reference's frame is its generated run with the result
  dropped; the ideal pass rewrote nothing, so `preserves` is trivial; `algebraic` joins the kernel's run with its
  result named (Proof/KRun.lean, KChain.lean, KValue.lean) to the reference's run (Proof/RValue.lean).
-/
import proofs.«133899_j52561809769216_1_alg».proof.Defs
import proofs.«133899_j52561809769216_1_alg».proof.Proof.Gen.Kernel
import proofs.«133899_j52561809769216_1_alg».proof.Proof.Gen.Kernel.Skeleton
import proofs.«133899_j52561809769216_1_alg».proof.Proof.Gen.Kernel.Launch
import proofs.«133899_j52561809769216_1_alg».proof.Proof.Gen.Kernel.Points
import proofs.«133899_j52561809769216_1_alg».proof.Proof.Gen.Kernel.Frame
import proofs.«133899_j52561809769216_1_alg».proof.Proof.Gen.KernelIdeal
import proofs.«133899_j52561809769216_1_alg».proof.Proof.Gen.KernelIdeal.Skeleton
import proofs.«133899_j52561809769216_1_alg».proof.Proof.Gen.KernelIdeal.Launch
import proofs.«133899_j52561809769216_1_alg».proof.Proof.Gen.KernelIdeal.Points
import proofs.«133899_j52561809769216_1_alg».proof.Proof.Gen.KernelIdeal.Frame
import proofs.«133899_j52561809769216_1_alg».proof.Proof.Gen.ReferenceIdeal
import proofs.«133899_j52561809769216_1_alg».proof.Proof.Gen.ReferenceIdeal.Run
import proofs.«133899_j52561809769216_1_alg».proof.Proof.Gen.ReferenceIdeal.Read
import proofs.«133899_j52561809769216_1_alg».proof.Proof.Gen.Pre_finite_inputs
import proofs.«133899_j52561809769216_1_alg».proof.Proof.KRun
import proofs.«133899_j52561809769216_1_alg».proof.Proof.KValue
import proofs.«133899_j52561809769216_1_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both runs end with the result at the specification's function of the argument arrays, and the memories agree
    on those. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Whole.result_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
